-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192x1 : Shape := ⟨3, ![4, 8192, 1]⟩
abbrev S4x1x8192 : Shape := ⟨3, ![4, 1, 8192]⟩
abbrev S1x1024x3 : Shape := ⟨3, ![1, 1024, 3]⟩
abbrev S1x3x1024 : Shape := ⟨3, ![1, 3, 1024]⟩
abbrev S1x1024x1 : Shape := ⟨3, ![1, 1024, 1]⟩
abbrev S1x1x8192 : Shape := ⟨3, ![1, 1, 8192]⟩
abbrev S1024x1 : Shape := ⟨2, ![1024, 1]⟩
abbrev S1x8192 : Shape := ⟨2, ![1, 8192]⟩
abbrev S1024x3 : Shape := ⟨2, ![1024, 3]⟩
abbrev S3x1024 : Shape := ⟨2, ![3, 1024]⟩
abbrev S1024 : Shape := ⟨1, ![1024]⟩
abbrev S1x1024 : Shape := ⟨2, ![1, 1024]⟩
abbrev S1024x1024 : Shape := ⟨2, ![1024, 1024]⟩
abbrev S1x1x1024 : Shape := ⟨3, ![1, 1, 1024]⟩
abbrev S4x8192 : Shape := ⟨2, ![4, 8192]⟩
abbrev S_ : Shape := ⟨0, ![]⟩
abbrev S4 : Shape := ⟨1, ![4]⟩

abbrev nBuf : Space → Nat
  | .hbm => 18
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8192x1, .f32⟩
  | .hbm, ⟨4, _⟩ => ⟨S4x1x8192, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v37 : BitVec 32 := Scalar.muli arg2 c1024_i32
  v37
def k0_off1 (i : grid0.Coords) : Fin 3 → Nat :=
  let c0_20 : Index := 0#32
  let c0_21 : Index := 0#32
  let arg2 : BitVec 32 := BitVec.ofNat 32 (i 2).val
  let c1024_i32 : BitVec 32 := 1024#32
  let v37 : BitVec 32 := Scalar.muli arg2 c1024_i32
  let v38 : BitVec 32 := v37
  let v39 : Index := Scalar.indexCast v38
  ![0, 0, v39.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S1024x3_S1024 : S1024x3.Reduces [1] S1024
  shapeCasts_S1024_S1024x1 : S1024.ShapeCasts S1024x1
  reduces_S3x1024_S1024 : S3x1024.Reduces [0] S1024
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S4x8192x1_S4x8192 : S4x8192x1.ShapeCasts S4x8192
  shapeCasts_S4x1x8192_S4x8192 : S4x1x8192.ShapeCasts S4x8192
  reducesTo_S4x8192_S4_d1 : S4x8192.ReducesTo [1] S4
  h_S_ : 0 < S_.numel
  bcast_S_S4 : S_.BroadcastsInDim S4 (![] : Fin 0 → Fin S4.rank)
  dot_S1024x3_S3x1024_S1024x1024_1_0_0_1_n_n_wf : DotDims.WF S1024x3 S3x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x8192.size a
  hwx0_1 : ∀ i : grid0.Coords, EltTy.bits .f32 = 32 ∨ (Rect.block (s := S4x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.AccK.lean ====
/-
  What one grid point does to the two running minima, as functions of the blocks it is given.

  The row accumulator holds, for each of the 1024 points of the current row tile, the least squared distance
  seen so far; a point replaces it by the minimum of itself and the row minima of the point's 1024 x 1024 tile
  of squared distances.  The column accumulator holds 8192 running minima, one per point of the second cloud;
  a point touches only the 1024 of its own column tile, replacing each by the minimum of itself and the
  column minimum of the tile, and leaves the other 7168 as they were.
-/
import proofs.«134801_j481036337470_2_alg».proof.Proof.Gen.Kernel.Skeleton
import Idealize.ShloMosaic.Lib.WritesUnit
import Idealize.ShloMosaic.Lib.Pipeline.Value

noncomputable section

namespace Cert.Kernel.Hand

open Cert.Kernel Cert.Kernel.Gen
open Idealize.ShloMosaic Idealize.ShloMosaic.TcCoe

variable {F : FTy → Type} [FloatOps F]

/-- The row accumulator after a point: the minimum of what it held (`xo`) and the row minima of this point's tile
    of squared distances, computed from the two input blocks. -/
def rowNew (x0 : Vec F S1x1024x3 .f32) (x1 : Vec F S1x3x1024 .f32) (xo : Vec F S1x1024x1 .f32) : Vec F S1x1024x1 .f32 :=
  k0_pay1 (k0_pay6 x0 x1 xo)

/-- The column accumulator after a point: on the 1024 columns of this point's column tile the minimum of what it
    held there and the column minima of the tile of squared distances; every other column as it was. -/
def colNew (i : grid0.Coords) (x0 : Vec F S1x1024x3 .f32) (x1 : Vec F S1x3x1024 .f32) (xo : Vec F S1x1x8192 .f32) : Vec F S1x1x8192 .f32 :=
  fun y =>
    if h : ∀ a, k0_off1 i a ≤ (y a).val ∧ (y a).val < k0_off1 i a + S1x1x1024.size a then
      k0_pay2 (k0_pay5 x0 x1) (View.ld xo (Rect.unit (s := S1x1x8192) (k0_off1 i) S1x1x1024.size (k0_off1_inb i)))
        (Rect.unitLocal (s := S1x1x8192) (off := k0_off1 i) (size := S1x1x1024.size) y h)
    else xo y

/-- The three zero offsets, spelt as the constant function. -/
theorem hz3 : (![0, 0, 0] : Fin 3 → ℕ) = fun _ => 0 := by funext a; fin_cases a <;> rfl

end Cert.Kernel.Hand

end
-- ==== Proof.BodyK.lean ====
/-
  The kernel body at one grid point, and the pipeline around it.

  The body has two branches, both decided by the point's coordinates: at the first column tile of a row of tiles
  it fills the row accumulator with +inf before using it, and at the first point of a batch it fills the column
  accumulator with +inf.  So there are three cases: both fills (every 64th point), the row fill only (every 8th
  point otherwise), neither.  In each the body then replaces the row accumulator by the pointwise minimum with
  the tile's row minima, and the 1024 entries of the column accumulator under the current column tile by the
  minimum with the tile's column minima.  The accumulators' contents after each point are defined by recursion
  on the point; between two points of one row of tiles (one batch) the row (column) accumulator's staging buffer
  is not written back, so the body finds what it left.
-/
import proofs.«134801_j481036337470_2_alg».proof.Proof.Gen.Kernel.Frame
import proofs.«134801_j481036337470_2_alg».proof.Proof.Gen.Kernel.Skeleton
import proofs.«134801_j481036337470_2_alg».proof.Proof.AccK
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points restart which accumulator -/

/-- The body's first branch: the point is the first of its row of column tiles (third coordinate zero). -/
abbrev cond0 (i : grid0.Coords) : Prop := (Scalar.cmpi .ne (Scalar.extui (Scalar.cmpi .eq (BitVec.ofNat 32 (i 2).val) 0#32)) 0#32) = 1#1
/-- The body's second branch: the point is the first of its batch (second and third coordinates zero). -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1

/-- In the row-major order of the 4 x 8 x 8 grid the third coordinate is zero at the multiples of 8, -/
theorem hcond0 : ∀ t : Fin cfg0.N, cond0 (grid0.coords t) ↔ t.val % 8 = 0 :=
  (by decide +kernel : ∀ t : Fin grid0.N, cond0 (grid0.coords t) ↔ t.val % 8 = 0)
/-- and the last two are both zero at the multiples of 64. -/
theorem hcond1 : ∀ t : Fin cfg0.N, cond1 (grid0.coords t) ↔ t.val % 64 = 0 :=
  (by decide +kernel : ∀ t : Fin grid0.N, cond1 (grid0.coords t) ↔ t.val % 64 = 0)

/-- Each window's current staging buffer at point `t`, and that it is a whole buffer. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

/-! ## The body, in each of its three cases

In every case the two input buffers are read and handed back untouched, and the two accumulators are handed back at
the point's update (`rowNew`, `colNew`) of what they are taken to hold: the constant +inf block where the case
first fills the buffer with it (whatever it held), what the buffer held otherwise. -/

set_option maxHeartbeats 1000000 in
theorem runA (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1x1x8192 .f32) (harg6 : arg6.IsWhole) (hc0 : cond0 i) (hc1 : cond1 i)
    (x0 : Vec F S1x1024x3 .f32) (x1 : Vec F S1x3x1024 .f32)  :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (rowNew x0 x1 (k0_pay3 (F := F))) ∗ owns (c : Thread nD τ) arg6 fullShare (colNew i x0 x1 (k0_pay4 (F := F)))) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      unfold rowNew
      rw [View.read_writes_eq_canon _ _ _ (fun y => ⟨_, List.mem_cons_self, View.mem_set_unit_zero hz3 inb_S1x1024x1_S1x1024x1_0_0_0 y⟩), View.canon_cons_unit_zero hz3]
      simp only [View.readAt_eq_ld, harg3.read_unread, harg4.read_unread, View.ld_unit_zero (S := S1x1024x3) hz3, View.ld_unit_zero (S := S1x3x1024) hz3]
      rw [View.readCov_unit_zero (S := S1x1024x1) arg5.view hz3]
    iexists _; isplitr; swap; · iexact H3
    ipureintro
    sl_unfold_run_names
    have e : View.read (Elt F) arg6.view (arg6.view.writes (Elt F) arg6.view.junk
        [⟨Rect.unit ![0, 0, 0] S1x1x8192.size inb_S1x1x8192_S1x1x8192_0_0_0, k0_pay4 (F := F)⟩]) = k0_pay4 (F := F) := by
      rw [View.read_writes_eq_canon _ _ _ (fun y => ⟨_, List.mem_singleton_self _, View.mem_set_unit_zero hz3 inb_S1x1x8192_S1x1x8192_0_0_0 y⟩), View.canon_unit_zero hz3]
    funext y
    rw [View.read_writes_cons_unit arg6.view _ (k0_off1_inb i) _ _ y rfl]
    unfold colNew
    simp only [View.readAt_eq_ld, harg3.read_unread, harg4.read_unread, View.ld_unit_zero (S := S1x1024x3) hz3, View.ld_unit_zero (S := S1x3x1024) hz3, e]

set_option maxHeartbeats 1000000 in
theorem runC (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1x1x8192 .f32) (harg6 : arg6.IsWhole) (hc0 : cond0 i) (hc1 : ¬cond1 i)
    (x0 : Vec F S1x1024x3 .f32) (x1 : Vec F S1x3x1024 .f32) (xo3 : Vec F S1x1x8192 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (rowNew x0 x1 (k0_pay3 (F := F))) ∗ owns (c : Thread nD τ) arg6 fullShare (colNew i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      unfold rowNew
      rw [View.read_writes_eq_canon _ _ _ (fun y => ⟨_, List.mem_cons_self, View.mem_set_unit_zero hz3 inb_S1x1024x1_S1x1024x1_0_0_0 y⟩), View.canon_cons_unit_zero hz3]
      simp only [View.readAt_eq_ld, harg3.read_unread, harg4.read_unread, View.ld_unit_zero (S := S1x1024x3) hz3, View.ld_unit_zero (S := S1x3x1024) hz3]
      rw [View.readCov_unit_zero (S := S1x1024x1) arg5.view hz3]
    iexists _; isplitr; swap; · iexact H3
    ipureintro
    sl_unfold_run_names
    funext y
    rw [View.read_writes_cons_unit arg6.view _ (k0_off1_inb i) _ [] y rfl]
    unfold colNew
    simp only [View.writes_nil, View.readAt_eq_ld, harg3.read_unread, harg4.read_unread, View.ld_unit_zero (S := S1x1024x3) hz3, View.ld_unit_zero (S := S1x3x1024) hz3, harg6.read_unread]

set_option maxHeartbeats 1000000 in
theorem runB (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1x1x8192 .f32) (harg6 : arg6.IsWhole) (hc0 : ¬cond0 i) (hc1 : ¬cond1 i)
    (x0 : Vec F S1x1024x3 .f32) (x1 : Vec F S1x3x1024 .f32) (xo2 : Vec F S1x1024x1 .f32) (xo3 : Vec F S1x1x8192 .f32) :
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (rowNew x0 x1 xo2) ∗ owns (c : Thread nD τ) arg6 fullShare (colNew i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      unfold rowNew
      rw [View.read_writes_eq_canon _ _ _ (fun y => ⟨_, List.mem_singleton_self _, View.mem_set_unit_zero hz3 inb_S1x1024x1_S1x1024x1_0_0_0 y⟩), View.canon_unit_zero hz3]
      simp only [View.readAt_eq_ld, harg3.read_unread, harg4.read_unread, View.ld_unit_zero (S := S1x1024x3) hz3, View.ld_unit_zero (S := S1x3x1024) hz3, harg5.read_unread, View.ld_unit_zero (S := S1x1024x1) hz3]
    iexists _; isplitr; swap; · iexact H3
    ipureintro
    sl_unfold_run_names
    funext y
    rw [View.read_writes_cons_unit arg6.view _ (k0_off1_inb i) _ [] y rfl]
    unfold colNew
    simp only [View.writes_nil, View.readAt_eq_ld, harg3.read_unread, harg4.read_unread, View.ld_unit_zero (S := S1x1024x3) hz3, View.ld_unit_zero (S := S1x3x1024) hz3, harg6.read_unread]

variable (m : (ℓ : Loc nD τ sig) → Buf (Elt F) ℓ) (ρ : Dev nD → PrngReg)

/-! ## The two accumulators, point by point -/

/-- What the row accumulator (first component) and the column accumulator (second) hold after the body at the
    `n`-th point of the grid, in its row-major order: the point's update of what the point before left, the row
    accumulator starting afresh from the constant +inf block at the first point of each row of column tiles (every
    eighth point), the column accumulator at the first point of each batch (every sixty-fourth). -/
def outs (c : Dev nD) : (n : ℕ) → n < cfg0.N → Vec F S1x1024x1 .f32 × Vec F S1x1x8192 .f32
  | 0, hn => (rowNew (iblk m c 0 ⟨0, hn⟩) (iblk m c 1 ⟨0, hn⟩) (k0_pay3 (F := F)),
      colNew (grid0.coords ⟨0, hn⟩) (iblk m c 0 ⟨0, hn⟩) (iblk m c 1 ⟨0, hn⟩) (k0_pay4 (F := F)))
  | n + 1, hn =>
    (rowNew (iblk m c 0 ⟨n + 1, hn⟩) (iblk m c 1 ⟨n + 1, hn⟩)
        (if (n + 1) % 8 = 0 then k0_pay3 (F := F) else (outs c n (Nat.lt_of_succ_lt hn)).1),
      colNew (grid0.coords ⟨n + 1, hn⟩) (iblk m c 0 ⟨n + 1, hn⟩) (iblk m c 1 ⟨n + 1, hn⟩)
        (if (n + 1) % 64 = 0 then k0_pay4 (F := F) else (outs c n (Nat.lt_of_succ_lt hn)).2))

/-- The recursion, stated once for every point. -/
theorem outs_eq (c : Dev nD) (t : Fin cfg0.N) :
    outs m c t.val t.isLt
      = (rowNew (iblk m c 0 t) (iblk m c 1 t)
          (if t.val % 8 = 0 then k0_pay3 (F := F) else (outs m c (t.val - 1) (Nat.lt_of_le_of_lt (Nat.sub_le _ _) t.isLt)).1),
        colNew (grid0.coords t) (iblk m c 0 t) (iblk m c 1 t)
          (if t.val % 64 = 0 then k0_pay4 (F := F) else (outs m c (t.val - 1) (Nat.lt_of_le_of_lt (Nat.sub_le _ _) t.isLt)).2)) := by
  obtain ⟨n, hn⟩ := t
  cases n with
  | zero => rfl
  | succ n => rfl

/-! ## The proof data of the pipeline -/

/-- On core `c`: the arrays as the region finds them; after the body at point `t` each input's buffer at its block
    and the two outputs' buffers at the running minima. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outs m c t.val t.isLt).1 := by dsimp only [dats]
theorem after3 (c : Dev nD) (t : Fin cfg0.N) : (dats m 0 c).after 3 t = (outs m c t.val t.isLt).2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Inside a row of column tiles the row accumulator's buffer is not written back between two points: the body
    finds what the point before left. -/
theorem before2 (c : Dev nD) (t : Fin cfg0.N) (h0 : ¬t.val % 8 = 0) (d) :
    (dats m 0 c).before 2 t d = (outs m c (t.val - 1) (Nat.lt_of_le_of_lt (Nat.sub_le _ _) t.isLt)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch the column accumulator's buffer is not written back between two points either. -/
theorem before3 (c : Dev nD) (t : Fin cfg0.N) (h1 : ¬t.val % 64 = 0) (d) :
    (dats m 0 c).before 3 t d = (outs m c (t.val - 1) (Nat.lt_of_le_of_lt (Nat.sub_le _ _) t.isLt)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1200000 in
/-- The body at any point: which accumulators restart is decided by the point's place in the grid; an accumulator
    that does not restart is found as the point before left it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, outs_eq m c t]
  have hN : t.val < 256 := lt_of_lt_of_eq t.isLt (show cfg0.N = 256 from N_0)
  by_cases h0 : t.val % 8 = 0
  · by_cases h1 : t.val % 64 = 0
    · rw [if_pos h0, if_pos h1]
      iintro ⟨HΦ, Ho, ⟨%d0, H0⟩, ⟨%d1, H1⟩, ⟨%d2, H2⟩, ⟨%d3, H3⟩⟩
      iapply (runA c (grid0.coords t) _ _ _ _ _ _ _ _ ((hcond0 t).mpr h0) ((hcond1 t).mpr h1) (iblk m c 0 t) (iblk m c 1 t) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [if_pos h0, if_neg h1]
      simp only [before3 m c t h1]
      iintro ⟨HΦ, Ho, ⟨%d0, H0⟩, ⟨%d1, H1⟩, ⟨%d2, H2⟩, ⟨%d3, H3⟩⟩
      iapply (runC c (grid0.coords t) _ _ _ _ _ _ _ _ ((hcond0 t).mpr h0) (fun h => h1 ((hcond1 t).mp h)) (iblk m c 0 t) (iblk m c 1 t) _ Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 64 = 0 := by omega
    rw [if_neg h0, if_neg h1]
    simp only [before2 m c t h0, before3 m c t h1]
    iintro ⟨HΦ, Ho, ⟨%d0, H0⟩, ⟨%d1, H1⟩, ⟨%d2, H2⟩, ⟨%d3, H3⟩⟩
    iapply (runB c (grid0.coords t) _ _ _ _ _ _ _ _ (fun h => h0 ((hcond0 t).mp h)) (fun h => h1 ((hcond1 t).mp h)) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes
    from the proof data, and every other buffer at what the host operations after the region make of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.AccI.lean ====
/-
  What one grid point does to the two running minima, as functions of the blocks it is given.

  The row accumulator holds, for each of the 1024 points of the current row tile, the least squared distance
  seen so far; a point replaces it by the minimum of itself and the row minima of the point's 1024 x 1024 tile
  of squared distances.  The column accumulator holds 8192 running minima, one per point of the second cloud;
  a point touches only the 1024 of its own column tile, replacing each by the minimum of itself and the
  column minimum of the tile, and leaves the other 7168 as they were.
-/
import proofs.«134801_j481036337470_2_alg».proof.Proof.Gen.KernelIdeal.Skeleton
import Idealize.ShloMosaic.Lib.WritesUnit
import Idealize.ShloMosaic.Lib.Pipeline.Value

noncomputable section

namespace Cert.KernelIdeal.Hand

open Cert.KernelIdeal Cert.KernelIdeal.Gen
open Idealize.ShloMosaic Idealize.ShloMosaic.TcCoe

variable {F : FTy → Type} [FloatOps F]

/-- The row accumulator after a point: the minimum of what it held (`xo`) and the row minima of this point's tile
    of squared distances, computed from the two input blocks. -/
def rowNew (x0 : Vec F S1x1024x3 .f32) (x1 : Vec F S1x3x1024 .f32) (xo : Vec F S1x1024x1 .f32) : Vec F S1x1024x1 .f32 :=
  k0_pay1 (k0_pay6 x0 x1 xo)

/-- The column accumulator after a point: on the 1024 columns of this point's column tile the minimum of what it
    held there and the column minima of the tile of squared distances; every other column as it was. -/
def colNew (i : grid0.Coords) (x0 : Vec F S1x1024x3 .f32) (x1 : Vec F S1x3x1024 .f32) (xo : Vec F S1x1x8192 .f32) : Vec F S1x1x8192 .f32 :=
  fun y =>
    if h : ∀ a, k0_off1 i a ≤ (y a).val ∧ (y a).val < k0_off1 i a + S1x1x1024.size a then
      k0_pay2 (k0_pay5 x0 x1) (View.ld xo (Rect.unit (s := S1x1x8192) (k0_off1 i) S1x1x1024.size (k0_off1_inb i)))
        (Rect.unitLocal (s := S1x1x8192) (off := k0_off1 i) (size := S1x1x1024.size) y h)
    else xo y

/-- The three zero offsets, spelt as the constant function. -/
theorem hz3 : (![0, 0, 0] : Fin 3 → ℕ) = fun _ => 0 := by funext a; fin_cases a <;> rfl

end Cert.KernelIdeal.Hand

end
-- ==== Proof.BodyI.lean ====
/-
  The kernel body at one grid point, and the pipeline around it.

  The body has two branches, both decided by the point's coordinates: at the first column tile of a row of tiles
  it fills the row accumulator with +inf before using it, and at the first point of a batch it fills the column
  accumulator with +inf.  So there are three cases: both fills (every 64th point), the row fill only (every 8th
  point otherwise), neither.  In each the body then replaces the row accumulator by the pointwise minimum with
  the tile's row minima, and the 1024 entries of the column accumulator under the current column tile by the
  minimum with the tile's column minima.  The accumulators' contents after each point are defined by recursion
  on the point; between two points of one row of tiles (one batch) the row (column) accumulator's staging buffer
  is not written back, so the body finds what it left.
-/
import proofs.«134801_j481036337470_2_alg».proof.Proof.Gen.KernelIdeal.Frame
import proofs.«134801_j481036337470_2_alg».proof.Proof.Gen.KernelIdeal.Skeleton
import proofs.«134801_j481036337470_2_alg».proof.Proof.AccI
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points restart which accumulator -/

/-- The body's first branch: the point is the first of its row of column tiles (third coordinate zero). -/
abbrev cond0 (i : grid0.Coords) : Prop := (Scalar.cmpi .ne (Scalar.extui (Scalar.cmpi .eq (BitVec.ofNat 32 (i 2).val) 0#32)) 0#32) = 1#1
/-- The body's second branch: the point is the first of its batch (second and third coordinates zero). -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1

/-- In the row-major order of the 4 x 8 x 8 grid the third coordinate is zero at the multiples of 8, -/
theorem hcond0 : ∀ t : Fin cfg0.N, cond0 (grid0.coords t) ↔ t.val % 8 = 0 :=
  (by decide +kernel : ∀ t : Fin grid0.N, cond0 (grid0.coords t) ↔ t.val % 8 = 0)
/-- and the last two are both zero at the multiples of 64. -/
theorem hcond1 : ∀ t : Fin cfg0.N, cond1 (grid0.coords t) ↔ t.val % 64 = 0 :=
  (by decide +kernel : ∀ t : Fin grid0.N, cond1 (grid0.coords t) ↔ t.val % 64 = 0)

/-- Each window's current staging buffer at point `t`, and that it is a whole buffer. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

/-! ## The body, in each of its three cases

In every case the two input buffers are read and handed back untouched, and the two accumulators are handed back at
the point's update (`rowNew`, `colNew`) of what they are taken to hold: the constant +inf block where the case
first fills the buffer with it (whatever it held), what the buffer held otherwise. -/

set_option maxHeartbeats 1000000 in
theorem runA (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1x1x8192 .f32) (harg6 : arg6.IsWhole) (hc0 : cond0 i) (hc1 : cond1 i)
    (x0 : Vec F S1x1024x3 .f32) (x1 : Vec F S1x3x1024 .f32)  :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (rowNew x0 x1 (k0_pay3 (F := F))) ∗ owns (c : Thread nD τ) arg6 fullShare (colNew i x0 x1 (k0_pay4 (F := F)))) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      unfold rowNew
      rw [View.read_writes_eq_canon _ _ _ (fun y => ⟨_, List.mem_cons_self, View.mem_set_unit_zero hz3 inb_S1x1024x1_S1x1024x1_0_0_0 y⟩), View.canon_cons_unit_zero hz3]
      simp only [View.readAt_eq_ld, harg3.read_unread, harg4.read_unread, View.ld_unit_zero (S := S1x1024x3) hz3, View.ld_unit_zero (S := S1x3x1024) hz3]
      rw [View.readCov_unit_zero (S := S1x1024x1) arg5.view hz3]
    iexists _; isplitr; swap; · iexact H3
    ipureintro
    sl_unfold_run_names
    have e : View.read (Elt F) arg6.view (arg6.view.writes (Elt F) arg6.view.junk
        [⟨Rect.unit ![0, 0, 0] S1x1x8192.size inb_S1x1x8192_S1x1x8192_0_0_0, k0_pay4 (F := F)⟩]) = k0_pay4 (F := F) := by
      rw [View.read_writes_eq_canon _ _ _ (fun y => ⟨_, List.mem_singleton_self _, View.mem_set_unit_zero hz3 inb_S1x1x8192_S1x1x8192_0_0_0 y⟩), View.canon_unit_zero hz3]
    funext y
    rw [View.read_writes_cons_unit arg6.view _ (k0_off1_inb i) _ _ y rfl]
    unfold colNew
    simp only [View.readAt_eq_ld, harg3.read_unread, harg4.read_unread, View.ld_unit_zero (S := S1x1024x3) hz3, View.ld_unit_zero (S := S1x3x1024) hz3, e]

set_option maxHeartbeats 1000000 in
theorem runC (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1x1x8192 .f32) (harg6 : arg6.IsWhole) (hc0 : cond0 i) (hc1 : ¬cond1 i)
    (x0 : Vec F S1x1024x3 .f32) (x1 : Vec F S1x3x1024 .f32) (xo3 : Vec F S1x1x8192 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (rowNew x0 x1 (k0_pay3 (F := F))) ∗ owns (c : Thread nD τ) arg6 fullShare (colNew i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      unfold rowNew
      rw [View.read_writes_eq_canon _ _ _ (fun y => ⟨_, List.mem_cons_self, View.mem_set_unit_zero hz3 inb_S1x1024x1_S1x1024x1_0_0_0 y⟩), View.canon_cons_unit_zero hz3]
      simp only [View.readAt_eq_ld, harg3.read_unread, harg4.read_unread, View.ld_unit_zero (S := S1x1024x3) hz3, View.ld_unit_zero (S := S1x3x1024) hz3]
      rw [View.readCov_unit_zero (S := S1x1024x1) arg5.view hz3]
    iexists _; isplitr; swap; · iexact H3
    ipureintro
    sl_unfold_run_names
    funext y
    rw [View.read_writes_cons_unit arg6.view _ (k0_off1_inb i) _ [] y rfl]
    unfold colNew
    simp only [View.writes_nil, View.readAt_eq_ld, harg3.read_unread, harg4.read_unread, View.ld_unit_zero (S := S1x1024x3) hz3, View.ld_unit_zero (S := S1x3x1024) hz3, harg6.read_unread]

set_option maxHeartbeats 1000000 in
theorem runB (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1x1x8192 .f32) (harg6 : arg6.IsWhole) (hc0 : ¬cond0 i) (hc1 : ¬cond1 i)
    (x0 : Vec F S1x1024x3 .f32) (x1 : Vec F S1x3x1024 .f32) (xo2 : Vec F S1x1024x1 .f32) (xo3 : Vec F S1x1x8192 .f32) :
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (rowNew x0 x1 xo2) ∗ owns (c : Thread nD τ) arg6 fullShare (colNew i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      unfold rowNew
      rw [View.read_writes_eq_canon _ _ _ (fun y => ⟨_, List.mem_singleton_self _, View.mem_set_unit_zero hz3 inb_S1x1024x1_S1x1024x1_0_0_0 y⟩), View.canon_unit_zero hz3]
      simp only [View.readAt_eq_ld, harg3.read_unread, harg4.read_unread, View.ld_unit_zero (S := S1x1024x3) hz3, View.ld_unit_zero (S := S1x3x1024) hz3, harg5.read_unread, View.ld_unit_zero (S := S1x1024x1) hz3]
    iexists _; isplitr; swap; · iexact H3
    ipureintro
    sl_unfold_run_names
    funext y
    rw [View.read_writes_cons_unit arg6.view _ (k0_off1_inb i) _ [] y rfl]
    unfold colNew
    simp only [View.writes_nil, View.readAt_eq_ld, harg3.read_unread, harg4.read_unread, View.ld_unit_zero (S := S1x1024x3) hz3, View.ld_unit_zero (S := S1x3x1024) hz3, harg6.read_unread]

variable (m : (ℓ : Loc nD τ sig) → Buf (Elt F) ℓ) (ρ : Dev nD → PrngReg)

/-! ## The two accumulators, point by point -/

/-- What the row accumulator (first component) and the column accumulator (second) hold after the body at the
    `n`-th point of the grid, in its row-major order: the point's update of what the point before left, the row
    accumulator starting afresh from the constant +inf block at the first point of each row of column tiles (every
    eighth point), the column accumulator at the first point of each batch (every sixty-fourth). -/
def outs (c : Dev nD) : (n : ℕ) → n < cfg0.N → Vec F S1x1024x1 .f32 × Vec F S1x1x8192 .f32
  | 0, hn => (rowNew (iblk m c 0 ⟨0, hn⟩) (iblk m c 1 ⟨0, hn⟩) (k0_pay3 (F := F)),
      colNew (grid0.coords ⟨0, hn⟩) (iblk m c 0 ⟨0, hn⟩) (iblk m c 1 ⟨0, hn⟩) (k0_pay4 (F := F)))
  | n + 1, hn =>
    (rowNew (iblk m c 0 ⟨n + 1, hn⟩) (iblk m c 1 ⟨n + 1, hn⟩)
        (if (n + 1) % 8 = 0 then k0_pay3 (F := F) else (outs c n (Nat.lt_of_succ_lt hn)).1),
      colNew (grid0.coords ⟨n + 1, hn⟩) (iblk m c 0 ⟨n + 1, hn⟩) (iblk m c 1 ⟨n + 1, hn⟩)
        (if (n + 1) % 64 = 0 then k0_pay4 (F := F) else (outs c n (Nat.lt_of_succ_lt hn)).2))

/-- The recursion, stated once for every point. -/
theorem outs_eq (c : Dev nD) (t : Fin cfg0.N) :
    outs m c t.val t.isLt
      = (rowNew (iblk m c 0 t) (iblk m c 1 t)
          (if t.val % 8 = 0 then k0_pay3 (F := F) else (outs m c (t.val - 1) (Nat.lt_of_le_of_lt (Nat.sub_le _ _) t.isLt)).1),
        colNew (grid0.coords t) (iblk m c 0 t) (iblk m c 1 t)
          (if t.val % 64 = 0 then k0_pay4 (F := F) else (outs m c (t.val - 1) (Nat.lt_of_le_of_lt (Nat.sub_le _ _) t.isLt)).2)) := by
  obtain ⟨n, hn⟩ := t
  cases n with
  | zero => rfl
  | succ n => rfl

/-! ## The proof data of the pipeline -/

/-- On core `c`: the arrays as the region finds them; after the body at point `t` each input's buffer at its block
    and the two outputs' buffers at the running minima. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outs m c t.val t.isLt).1 := by dsimp only [dats]
theorem after3 (c : Dev nD) (t : Fin cfg0.N) : (dats m 0 c).after 3 t = (outs m c t.val t.isLt).2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Inside a row of column tiles the row accumulator's buffer is not written back between two points: the body
    finds what the point before left. -/
theorem before2 (c : Dev nD) (t : Fin cfg0.N) (h0 : ¬t.val % 8 = 0) (d) :
    (dats m 0 c).before 2 t d = (outs m c (t.val - 1) (Nat.lt_of_le_of_lt (Nat.sub_le _ _) t.isLt)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch the column accumulator's buffer is not written back between two points either. -/
theorem before3 (c : Dev nD) (t : Fin cfg0.N) (h1 : ¬t.val % 64 = 0) (d) :
    (dats m 0 c).before 3 t d = (outs m c (t.val - 1) (Nat.lt_of_le_of_lt (Nat.sub_le _ _) t.isLt)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1200000 in
/-- The body at any point: which accumulators restart is decided by the point's place in the grid; an accumulator
    that does not restart is found as the point before left it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, outs_eq m c t]
  have hN : t.val < 256 := lt_of_lt_of_eq t.isLt (show cfg0.N = 256 from N_0)
  by_cases h0 : t.val % 8 = 0
  · by_cases h1 : t.val % 64 = 0
    · rw [if_pos h0, if_pos h1]
      iintro ⟨HΦ, Ho, ⟨%d0, H0⟩, ⟨%d1, H1⟩, ⟨%d2, H2⟩, ⟨%d3, H3⟩⟩
      iapply (runA c (grid0.coords t) _ _ _ _ _ _ _ _ ((hcond0 t).mpr h0) ((hcond1 t).mpr h1) (iblk m c 0 t) (iblk m c 1 t) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [if_pos h0, if_neg h1]
      simp only [before3 m c t h1]
      iintro ⟨HΦ, Ho, ⟨%d0, H0⟩, ⟨%d1, H1⟩, ⟨%d2, H2⟩, ⟨%d3, H3⟩⟩
      iapply (runC c (grid0.coords t) _ _ _ _ _ _ _ _ ((hcond0 t).mpr h0) (fun h => h1 ((hcond1 t).mp h)) (iblk m c 0 t) (iblk m c 1 t) _ Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 64 = 0 := by omega
    rw [if_neg h0, if_neg h1]
    simp only [before2 m c t h0, before3 m c t h1]
    iintro ⟨HΦ, Ho, ⟨%d0, H0⟩, ⟨%d1, H1⟩, ⟨%d2, H2⟩, ⟨%d3, H3⟩⟩
    iapply (runB c (grid0.coords t) _ _ _ _ _ _ _ _ (fun h => h0 ((hcond0 t).mp h)) (fun h => h1 ((hcond1 t).mp h)) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes
    from the proof data, and every other buffer at what the host operations after the region make of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The mathematics of the chamfer distance between two clouds of 8192 points in three dimensions, four
  batches of them, over the extended reals.

  For clouds x and y, batch n, a point p of x and a point q of y, the squared distance is written the way both
  programs compute it,  (|x_p|^2 + |y_q|^2) - 2 * <x_p, y_q>,  each of the three terms a sum over the three
  coordinates.  The two nearest-neighbour arrays are the infima of that over q (per p) and over p (per q).
  An infimum over a range of tiles is the infimum of the infimum so far and the infimum over the next tile:
  that is the only law the tiled computation needs, and it holds in any complete linear order.
-/
import Idealize.ShloMosaic.PureOps.Ideal
import Idealize.ShloMosaic.PureOps.Ideal.Laws
import Idealize.ShloMosaic.Lib.ValueIdx

noncomputable section

namespace Chamfer

open Idealize.ShloMosaic Idealize.ShloMosaic.ValueIdx

/-- A cloud: four batches of 8192 points with three coordinates. -/
abbrev Cloud : Shape := ⟨3, ![4, 8192, 3]⟩

/-- The squared norm of point `p` of batch `n`: the sum over the three coordinates of the squares. -/
def nrm (x : Cloud.Idx → EReal) (n : Fin 4) (p : Fin 8192) : EReal :=
  ∑ d : Fin 3, x (ix3 n p d) * x (ix3 n p d)

/-- The inner product of point `p` of `x` and point `q` of `y` in batch `n`. -/
def dot (x y : Cloud.Idx → EReal) (n : Fin 4) (p q : Fin 8192) : EReal :=
  ∑ d : Fin 3, x (ix3 n p d) * y (ix3 n q d)

/-- The factor two, as the binary word both programs carry. -/
def two : EReal := Ideal.ofBits .f32 0x40000000#32

/-- The squared distance, in the association both programs use: (|x_p|^2 + |y_q|^2) - 2 <x_p, y_q>. -/
def sqd (x y : Cloud.Idx → EReal) (n : Fin 4) (p q : Fin 8192) : EReal :=
  (nrm x n p + nrm y n q) - two * dot x y n p q

/-- For each point of `x`, the least squared distance to a point of `y`. -/
def rowMin (x y : Cloud.Idx → EReal) (n : Fin 4) (p : Fin 8192) : EReal :=
  Finset.univ.inf fun q : Fin 8192 => sqd x y n p q

/-- For each point of `y`, the least squared distance to a point of `x`. -/
def colMin (x y : Cloud.Idx → EReal) (n : Fin 4) (q : Fin 8192) : EReal :=
  Finset.univ.inf fun p : Fin 8192 => sqd x y n p q

/-- The least squared distance from point `p` of `x` to the first `k` points of `y`. -/
def rowPre (x y : Cloud.Idx → EReal) (n : Fin 4) (p : Fin 8192) (k : ℕ) : EReal :=
  (Finset.univ.filter fun q : Fin 8192 => q.val < k).inf fun q => sqd x y n p q

/-- The least squared distance from point `q` of `y` to the first `k` points of `x`. -/
def colPre (x y : Cloud.Idx → EReal) (n : Fin 4) (q : Fin 8192) (k : ℕ) : EReal :=
  (Finset.univ.filter fun p : Fin 8192 => p.val < k).inf fun p => sqd x y n p q

/-- The infinity both programs start a minimum from is the top of the extended reals. -/
theorem inf_word : Ideal.ofBits .f32 0x7F800000#32 = (⊤ : EReal) := by
  simp [Ideal.ofBits, Ideal.ieee]

end Chamfer

end
-- ==== Proof.LibMinAxis.lean ====
/-
  Minima and sums along one axis of an array of extended reals, read at an index written by its coordinates.

  A minimum taken along one axis, started from a given value, is the fold of `min` from that value over the axis's
  coordinates; started from the top element it is the infimum.  This is proved for the host's reduction of a rank-3 array
  along its last or its middle axis, and for a vector reduction along any one axis; the sum of a matrix along its first
  axis is the sum over the row coordinate.  Last, the infimum of a function over the first `(j + 1) * w` indices is the
  smaller of its infimum over the first `j * w` and its infimum over the next run of `w`.
-/
import Idealize.ShloMosaic.PureOps.Ideal
import Idealize.ShloMosaic.PureOps.Ideal.Laws
import Idealize.ShloMosaic.PureOps.Reduce
import Idealize.ShloMosaic.Lib.ValueIdx

noncomputable section

namespace Idealize.ShloMosaic.MinAxis

open Idealize.ShloMosaic Idealize.ShloMosaic.ValueIdx

/-! ## The index with the reduced coordinate inserted -/

section Lift
variable {a b c : ℕ}

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

end Lift

/-! ## The host's minimum along one axis of a rank-3 array -/

section Host
variable {a b c : ℕ} {φ : FTy}

/-- The host's minimum along the last axis, at `(i, j)`: the fold of `min` from the initial value over `k`. -/
theorem hostReduce_min_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.minimumf (F := Ideal) (φ := φ)) x init h' hu (ix2 i j)
      = (Finset.univ : Finset (Fin c)).fold min (init (Shape.Idx.first hu)) fun k => x (ix3 i j k) := by
  refine (Host.reduce_eq_fold_single (FloatOps.minimumf (F := Ideal) (φ := φ)) x init h' h hu (ix2 i j)).trans ?_
  refine congrArg (Finset.fold min (init (Shape.Idx.first hu)) · Finset.univ) (funext fun k => ?_)
  exact congrArg x (lift_last h i j k)

/-- The host's minimum along the middle axis, at `(i, k)`: the fold of `min` from the initial value over `j`. -/
theorem hostReduce_min_middle {u : Shape} (x : (⟨3, ![a, b, c]⟩ : Shape).Idx → Ideal φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce (FloatOps.minimumf (F := Ideal) (φ := φ)) x init h' hu (ix2 i k)
      = (Finset.univ : Finset (Fin b)).fold min (init (Shape.Idx.first hu)) fun j => x (ix3 i j k) := by
  refine (Host.reduce_eq_fold_single (FloatOps.minimumf (F := Ideal) (φ := φ)) x init h' h hu (ix2 i k)).trans ?_
  refine congrArg (Finset.fold min (init (Shape.Idx.first hu)) · Finset.univ) (funext fun j => ?_)
  exact congrArg x (lift_middle h i j k)

end Host

/-- A fold of `min` from the top of the extended reals is the infimum. -/
theorem fold_min_top {ι : Type} (s : Finset ι) (f : ι → EReal) : s.fold min ⊤ f = s.inf f := rfl

/-! ## A vector reduction along one axis -/

/-- A vector minimum along one axis, read on the extended reals: the fold of `min` from the accumulator's value over
    that axis's coordinates. -/
theorem min_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum of a `[b, a]` matrix along its first axis, read at lane `q` on the extended reals, is the sum over the
    row coordinate of that lane's entries (the accumulator word is the neutral one, zero). -/
theorem sum_first_apply {a b : ℕ} (x : FVec Ideal ⟨2, ![b, a]⟩ .f32) (h : (⟨2, ![b, a]⟩ : Shape).Reduces [0] ⟨1, ![a]⟩)
    (hφ : FKind.Formats .f32) (hacc : (0x00000000#32 : BitVec 32) = FKind.add.neutral .f32 hφ) (q : Fin a) :
    multiReduction .add [0] ⟨1, ![a]⟩ x 0x00000000#32 h hφ hacc (ix1 q) = ∑ d : Fin b, x (ix2 d q) := by
  refine (Ideal.multiReduction_add_single x 0x00000000#32 h hφ hacc (ix1 q)).trans ?_
  show ∑ d : Fin b, x (h.lift (ix1 q) d) = ∑ d : Fin b, x (ix2 d q)
  refine Finset.sum_congr rfl fun d _ => congrArg x (funext fun c => Fin.ext ?_)
  match c with
  | ⟨0, _⟩ => rfl
  | ⟨1, _⟩ => rfl

/-! ## An infimum over the indices below a bound, one run of `w` at a time -/

section Runs
variable {N w : ℕ}

/-- Below zero there is no index: the infimum is the top. -/
theorem inf_below_zero (f : Fin N → EReal) : (Finset.univ.filter fun q : Fin N => q.val < 0).inf f = ⊤ := by
  have e : (Finset.univ.filter fun q : Fin N => q.val < 0) = ∅ :=
    Finset.filter_false_of_mem fun q _ => Nat.not_lt_zero _
  rw [e, Finset.inf_empty]

/-- Below `N` there is every index. -/
theorem inf_below_all (f : Fin N → EReal) :
    (Finset.univ.filter fun q : Fin N => q.val < N).inf f = Finset.univ.inf f := by
  rw [Finset.filter_true_of_mem fun q _ => q.isLt]

/-- Index `r` of run `j` is below `N` when the first `j + 1` runs are. -/
theorem run_lt (j : ℕ) (hj : (j + 1) * w ≤ N) (r : Fin w) : j * w + r.val < N := by
  have h : (j + 1) * w = j * w + w := Nat.succ_mul j w
  have := r.isLt
  omega

/-- The indices below `(j + 1) * w` are those below `j * w` and the run `j * w + r`, `r` below `w`. -/
theorem below_succ (j : ℕ) (hj : (j + 1) * w ≤ N) :
    (Finset.univ.filter fun q : Fin N => q.val < (j + 1) * w)
      = (Finset.univ.filter fun q : Fin N => q.val < j * w)
          ∪ Finset.univ.image fun r : Fin w => (⟨j * w + r.val, run_lt j hj r⟩ : Fin N) := by
  have h : (j + 1) * w = j * w + w := Nat.succ_mul j w
  ext q
  simp only [Finset.mem_filter, Finset.mem_univ, true_and, Finset.mem_union, Finset.mem_image]
  constructor
  · intro hq
    by_cases hq' : q.val < j * w
    · exact Or.inl hq'
    · exact Or.inr ⟨⟨q.val - j * w, by omega⟩, Fin.ext (by show j * w + (q.val - j * w) = q.val; omega)⟩
  · rintro (hq | ⟨r, rfl⟩)
    · omega
    · show j * w + r.val < (j + 1) * w
      have := r.isLt
      omega

/-- So the infimum below `(j + 1) * w` is the smaller of the infimum below `j * w` and the infimum over run `j`. -/
theorem inf_below_succ (f : Fin N → EReal) (j : ℕ) (hj : (j + 1) * w ≤ N) :
    (Finset.univ.filter fun q : Fin N => q.val < (j + 1) * w).inf f
      = min ((Finset.univ.filter fun q : Fin N => q.val < j * w).inf f)
          (Finset.univ.inf fun r : Fin w => f ⟨j * w + r.val, run_lt j hj r⟩) := by
  rw [below_succ j hj, Finset.inf_union, Finset.inf_image]
  rfl

end Runs

end Idealize.ShloMosaic.MinAxis

end
-- ==== Proof.RefSide.lean ====
/-
  The reference program read as mathematics.

  The reference computes, for two clouds x and y, the array of squared distances
  (|x_p|^2 + |y_q|^2) - 2 <x_p, y_q>, its minimum along each of its two point axes, and the sum of the two means.
  Here each of its values is read at an index written by its coordinates: the squared-distance array is the
  specification's, and a minimum along one axis, started from the top of the extended reals, is the infimum over that
  axis's coordinates.  What the program does after the two minima is kept as one function of them, never opened.
-/
import proofs.«134801_j481036337470_2_alg».proof.Proof.Gen.ReferenceIdeal.Read
import proofs.«134801_j481036337470_2_alg».proof.Proof.Spec
import proofs.«134801_j481036337470_2_alg».proof.Proof.LibMinAxis

noncomputable section

namespace Cert.ReferenceIdeal.RefValue

open Cert.ReferenceIdeal Cert.ReferenceIdeal.Gen Cert.ReferenceIdeal.Read Idealize.ShloMosaic Idealize.ShloMosaic.ValueIdx

/-! ## The squared distances -/

/-- The first cloud's squared norms: the zero the sum starts from adds nothing, and each term is a square. -/
theorem nrm_ref_x (x0 : (⟨S4x8192x3, .f32⟩ : BufTy).Contents (Elt Ideal)) (n : Fin 4) (p : Fin 8192) :
    Read.val_main_v1 (F := Ideal) x0 (ix2 n p) = Chamfer.nrm x0 n p := by
  refine (val_main_v1_apply x0 (ix2 n p)).trans ?_
  rw [val_main_cst_apply, Ideal.ofBits_def, Ideal.ofBits_zero_f32, zero_add]
  unfold Chamfer.nrm
  refine Finset.sum_congr rfl fun d _ => ?_
  have e : idx_main_v1 (ix2 n p) d = ix3 n p d :=
    funext fun a => Fin.ext (by match a with | ⟨0, _⟩ => rfl | ⟨1, _⟩ => rfl | ⟨2, _⟩ => rfl)
  rw [e]
  rfl

/-- The second cloud's squared norms, likewise. -/
theorem nrm_ref_y (x1 : (⟨S4x8192x3, .f32⟩ : BufTy).Contents (Elt Ideal)) (n : Fin 4) (q : Fin 8192) :
    Read.val_main_v3 (F := Ideal) x1 (ix2 n q) = Chamfer.nrm x1 n q := by
  refine (val_main_v3_apply x1 (ix2 n q)).trans ?_
  rw [val_main_cst_0_apply, Ideal.ofBits_def, Ideal.ofBits_zero_f32, zero_add]
  unfold Chamfer.nrm
  refine Finset.sum_congr rfl fun d _ => ?_
  have e : idx_main_v3 (ix2 n q) d = ix3 n q d :=
    funext fun a => Fin.ext (by match a with | ⟨0, _⟩ => rfl | ⟨1, _⟩ => rfl | ⟨2, _⟩ => rfl)
  rw [e]
  rfl

/-- The contraction over the three coordinates is the inner product of point `p` of the first cloud and point `q` of
    the second. -/
theorem dot_ref (x0 x1 : (⟨S4x8192x3, .f32⟩ : BufTy).Contents (Elt Ideal)) (n : Fin 4) (p q : Fin 8192) :
    Read.val_main_v4 (F := Ideal) x0 x1 (ix3 n p q) = Chamfer.dot x0 x1 n p q := by
  refine (val_main_v4_apply x0 x1 (ix3 n p q)).trans ?_
  unfold Chamfer.dot
  refine Finset.sum_congr rfl fun d _ => ?_
  have el : lidx_main_v4 (ix3 n p q) d = ix3 n p d :=
    funext fun a => Fin.ext (by match a with | ⟨0, _⟩ => rfl | ⟨1, _⟩ => rfl | ⟨2, _⟩ => rfl)
  have er : ridx_main_v4 (ix3 n p q) d = ix3 n q d :=
    funext fun a => Fin.ext (by match a with | ⟨0, _⟩ => rfl | ⟨1, _⟩ => rfl | ⟨2, _⟩ => rfl)
  rw [el, er]

/-- The reference's squared-distance array is the specification's: the two norms broadcast along the other cloud's
    axis and added, minus the constant two times the inner product. -/
theorem sqd_ref (x0 x1 : (⟨S4x8192x3, .f32⟩ : BufTy).Contents (Elt Ideal)) (n : Fin 4) (p q : Fin 8192) :
    Read.val_main_v12 (F := Ideal) x0 x1 (ix3 n p q) = Chamfer.sqd x0 x1 n p q := by
  have e7 : idx_main_v5 (idx_main_v7 (ix3 n p q)) = ix2 n p :=
    funext fun a => Fin.ext (by match a with | ⟨0, _⟩ => rfl | ⟨1, _⟩ => rfl)
  have e8 : idx_main_v6 (idx_main_v8 (ix3 n p q)) = ix2 n q :=
    funext fun a => Fin.ext (by match a with | ⟨0, _⟩ => rfl | ⟨1, _⟩ => rfl)
  have h7 : Read.val_main_v7 (F := Ideal) x0 (ix3 n p q) = Chamfer.nrm x0 n p := by
    rw [val_main_v7_apply, val_main_v5_apply, e7]
    exact nrm_ref_x x0 n p
  have h8 : Read.val_main_v8 (F := Ideal) x1 (ix3 n p q) = Chamfer.nrm x1 n q := by
    rw [val_main_v8_apply, val_main_v6_apply, e8]
    exact nrm_ref_y x1 n q
  have h10 : Read.val_main_v10 (F := Ideal) (ix3 n p q) = Chamfer.two := by
    rw [val_main_v10_apply, val_main_cst_1_apply]
    rfl
  rw [val_main_v12_apply, val_main_v9_apply, val_main_v11_apply, h7, h8, h10, dot_ref]
  rfl

/-! ## A minimum along one axis -/

/-- The minimum along the second cloud's axis, started from the word of plus infinity, is the specification's
    nearest-neighbour distance for each point of the first cloud. -/
theorem rowMin_ref (x0 x1 : (⟨S4x8192x3, .f32⟩ : BufTy).Contents (Elt Ideal)) (n : Fin 4) (p : Fin 8192) :
    Read.val_main_v13 (F := Ideal) x0 x1 (ix2 n p) = Chamfer.rowMin x0 x1 n p := by
  unfold Read.val_main_v13
  refine (MinAxis.hostReduce_min_last (Read.val_main_v12 (F := Ideal) x0 x1) (Read.val_main_cst_2 (F := Ideal))
    reducesTo_S4x8192x8192_S4x8192_d2 (by decide) h_S_ n p).trans ?_
  rw [val_main_cst_2_apply, Ideal.ofBits_def, Chamfer.inf_word, MinAxis.fold_min_top]
  unfold Chamfer.rowMin
  exact congrArg (Finset.univ.inf ·) (funext fun q => sqd_ref x0 x1 n p q)

/-- The minimum along the first cloud's axis, likewise, for each point of the second cloud. -/
theorem colMin_ref (x0 x1 : (⟨S4x8192x3, .f32⟩ : BufTy).Contents (Elt Ideal)) (n : Fin 4) (q : Fin 8192) :
    Read.val_main_v14 (F := Ideal) x0 x1 (ix2 n q) = Chamfer.colMin x0 x1 n q := by
  unfold Read.val_main_v14
  refine (MinAxis.hostReduce_min_middle (Read.val_main_v12 (F := Ideal) x0 x1) (Read.val_main_cst_3 (F := Ideal))
    reducesTo_S4x8192x8192_S4x8192_d1 (by decide) h_S_ n q).trans ?_
  rw [val_main_cst_3_apply, Ideal.ofBits_def, Chamfer.inf_word, MinAxis.fold_min_top]
  unfold Chamfer.colMin
  exact congrArg (Finset.univ.inf ·) (funext fun p => sqd_ref x0 x1 n p q)

/-! ## What the program does with the two minima -/

/-- The reference's last operations as one function of the two arrays of minima: each is summed along its point axis
    from zero and divided by the number of points, and the two means are added. -/
def tail (r c : (⟨S4x8192, .f32⟩ : BufTy).Contents (Elt Ideal)) : (⟨S4, .f32⟩ : BufTy).Contents (Elt Ideal) :=
  addf
    (Host.divf (F := Ideal)
      (Host.reduceAdd (F := Ideal) r (constant (F := Ideal) S_ .f32 0x00000000#32) reducesTo_S4x8192_S4_d1 h_S_)
      (broadcastInDim S4 ![] bcast_S_S4 (constant (F := Ideal) S_ .f32 0x46000000#32)))
    (Host.divf (F := Ideal)
      (Host.reduceAdd (F := Ideal) c (constant (F := Ideal) S_ .f32 0x00000000#32) reducesTo_S4x8192_S4_d1 h_S_)
      (broadcastInDim S4 ![] bcast_S_S4 (constant (F := Ideal) S_ .f32 0x46000000#32)))

/-- The reference's result is that function of its two arrays of minima. -/
theorem result_ref (x0 x1 : (⟨S4x8192x3, .f32⟩ : BufTy).Contents (Elt Ideal)) :
    Read.val_main_v21 (F := Ideal) x0 x1
      = tail (Read.val_main_v13 (F := Ideal) x0 x1) (Read.val_main_v14 (F := Ideal) x0 x1) := rfl

end Cert.ReferenceIdeal.RefValue

namespace Chamfer.Tiling

/-! ## An infimum over the points below a bound, one tile of 1024 at a time

The general law over runs of any width, at 8192 points in tiles of 1024. -/

/-- Below zero there is no point: the infimum is the top. -/
theorem inf_below_zero (f : Fin 8192 → EReal) :
    (Finset.univ.filter fun q : Fin 8192 => q.val < 0).inf f = ⊤ :=
  Idealize.ShloMosaic.MinAxis.inf_below_zero f

/-- Below 8192 there is every point. -/
theorem inf_below_all (f : Fin 8192 → EReal) :
    (Finset.univ.filter fun q : Fin 8192 => q.val < 8192).inf f = Finset.univ.inf f :=
  Idealize.ShloMosaic.MinAxis.inf_below_all f

/-- The points below `(j+1)*1024` are those below `j*1024` and the tile `j*1024 + r`, `r` below 1024. -/
theorem below_succ (j : ℕ) (hj : j < 8) :
    (Finset.univ.filter fun q : Fin 8192 => q.val < (j + 1) * 1024)
      = (Finset.univ.filter fun q : Fin 8192 => q.val < j * 1024)
          ∪ Finset.univ.image fun r : Fin 1024 => (⟨j * 1024 + r.val, by omega⟩ : Fin 8192) :=
  Idealize.ShloMosaic.MinAxis.below_succ j (by omega)

/-- So the infimum below `(j+1)*1024` is the smaller of the infimum below `j*1024` and the infimum over the next tile. -/
theorem inf_below_succ (f : Fin 8192 → EReal) (j : ℕ) (hj : j < 8) :
    (Finset.univ.filter fun q : Fin 8192 => q.val < (j + 1) * 1024).inf f
      = min ((Finset.univ.filter fun q : Fin 8192 => q.val < j * 1024).inf f)
          (Finset.univ.inf fun r : Fin 1024 => f ⟨j * 1024 + r.val, by omega⟩) :=
  Idealize.ShloMosaic.MinAxis.inf_below_succ f j (by omega)

end Chamfer.Tiling

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.Tile.lean ====
/-
  One grid point of the tiled nearest-neighbour computation, read entry by entry on the extended reals.

  A grid point holds a block of 1024 points of the first cloud (rows, three coordinates each) and a block of 1024
  points of the second cloud stored transposed (three rows of coordinates, one lane per point). From them it forms the
  1024 x 1024 table of squared distances in the association  (|x_p|^2 + |y_q|^2) - 2 <x_p, y_q> : the two squared norms
  are lane sums of squares, spread along rows and along columns, and the inner products are one matrix product with
  the three coordinates contracted. It then folds the table's minimum along each row into the running row minima and
  along each column into the running column minima, both of which start from the top element.

  Each statement below reads one of these values at an index given by its coordinates.
-/
import proofs.«134801_j481036337470_2_alg».proof.Proof.Gen.KernelIdeal.Skeleton
import proofs.«134801_j481036337470_2_alg».proof.Proof.Spec
import proofs.«134801_j481036337470_2_alg».proof.Proof.LibColumn
import proofs.«134801_j481036337470_2_alg».proof.Proof.LibMinAxis
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## Lane sums and the matrix product at an index -/

/-- The squared norms of the rows of a block of points, spread along the lanes: entry `(p, q)` is the sum of the
    squares of the three coordinates of point `p`. -/
theorem rowNorm_apply (v : FVec Ideal S1024x3 .f32) (p q : Fin 1024) :
    broadcastTo S1024x1024
        (shapeCast S1024x1
          (multiReduction (F := Ideal) .add [1] S1024 (mulf v v) 0x00000000#32 reduces_S1024x3_S1024 (.inl rfl) rfl)
          shapeCasts_S1024_S1024x1)
        broadcasts_S1024x1_S1024x1024 (ix2 p q)
      = ∑ d : Fin 3, v (ix2 p d) * v (ix2 p d) :=
  (LibColumn.broadcastTo_a1_ab_apply _ _ p q).trans
    ((LibColumn.shapeCast_a_a1_apply _ _ p 0).trans (LibColumn.sum_last_apply _ _ _ _ p))

/-- The squared norms of the columns of a transposed block of points, spread along the rows: entry `(p, q)` is the
    sum of the squares of the three coordinates of point `q`. -/
theorem colNorm_apply (v : FVec Ideal S3x1024 .f32) (p q : Fin 1024) :
    broadcastTo S1024x1024
        (shapeCast S1x1024
          (multiReduction (F := Ideal) .add [0] S1024 (mulf v v) 0x00000000#32 reduces_S3x1024_S1024 (.inl rfl) rfl)
          shapeCasts_S1024_S1x1024)
        broadcasts_S1x1024_S1024x1024 (ix2 p q)
      = ∑ d : Fin 3, v (ix2 d q) * v (ix2 d q) :=
  (broadcastTo_1b_ab_apply _ _ p q).trans
    ((shapeCast_a_1a_apply _ _ 0 q).trans (MinAxis.sum_first_apply _ _ _ _ q))

/-- Off the contracted axis the left operand's index of the matrix product reads the output's row. -/
theorem gram_lhs_0 (j : S1024x1024.Idx) (kk : dot_S1024x3_S3x1024_S1024x1024_1_0_0_1_n_n.contr.Idx) :
    (dot_S1024x3_S3x1024_S1024x1024_1_0_0_1_n_n.lhsIdx j kk 0).val = (j 0).val := by
  unfold DotDims.lhsIdx
  rw [dif_neg (show ¬(0 : Fin S1024x3.rank) ∈ dot_S1024x3_S3x1024_S1024x1024_1_0_0_1_n_n.lhsBatch by decide),
    dif_pos (show (0 : Fin S1024x3.rank) ∈ dot_S1024x3_S3x1024_S1024x1024_1_0_0_1_n_n.lhsNonContracting by decide)]
  rfl

/-- On the contracted axis it reads the contraction coordinate. -/
theorem gram_lhs_1 (j : S1024x1024.Idx) (kk : dot_S1024x3_S3x1024_S1024x1024_1_0_0_1_n_n.contr.Idx) :
    (dot_S1024x3_S3x1024_S1024x1024_1_0_0_1_n_n.lhsIdx j kk 1).val = (kk ⟨0, by decide⟩).val :=
  dot_S1024x3_S3x1024_S1024x1024_1_0_0_1_n_n.lhsIdx_val_of_single rfl j kk

/-- The right operand's index reads the contraction coordinate on its first axis … -/
theorem gram_rhs_0 (j : S1024x1024.Idx) (kk : dot_S1024x3_S3x1024_S1024x1024_1_0_0_1_n_n.contr.Idx) :
    (dot_S1024x3_S3x1024_S1024x1024_1_0_0_1_n_n.rhsIdx j kk 0).val = (kk ⟨0, by decide⟩).val :=
  dot_S1024x3_S3x1024_S1024x1024_1_0_0_1_n_n.rhsIdx_val_of_single rfl j kk

/-- … and the output's column on its second. -/
theorem gram_rhs_1 (j : S1024x1024.Idx) (kk : dot_S1024x3_S3x1024_S1024x1024_1_0_0_1_n_n.contr.Idx) :
    (dot_S1024x3_S3x1024_S1024x1024_1_0_0_1_n_n.rhsIdx j kk 1).val = (j 1).val := by
  unfold DotDims.rhsIdx
  rw [dif_neg (show ¬(1 : Fin S3x1024.rank) ∈ dot_S1024x3_S3x1024_S1024x1024_1_0_0_1_n_n.rhsBatch by decide),
    dif_pos (show (1 : Fin S3x1024.rank) ∈ dot_S1024x3_S3x1024_S1024x1024_1_0_0_1_n_n.rhsNonContracting by decide)]
  rfl

/-- So at output `(p, q)` and contraction coordinate `k` the left operand is read at `(p, k)` … -/
theorem gram_lhsIdx (p q : Fin 1024) (k : Fin 3) :
    dot_S1024x3_S3x1024_S1024x1024_1_0_0_1_n_n.lhsIdx (ix2 p q)
        ((contrEquiv1 dot_S1024x3_S3x1024_S1024x1024_1_0_0_1_n_n 3 rfl rfl).symm k) = ix2 p k := by
  have hk := contrEquiv1_symm_val dot_S1024x3_S3x1024_S1024x1024_1_0_0_1_n_n 3 rfl rfl k
  refine funext fun a => Fin.ext ?_
  match a with
  | ⟨0, _⟩ => exact gram_lhs_0 _ _
  | ⟨1, _⟩ => exact (gram_lhs_1 _ _).trans hk

/-- … and the right operand at `(k, q)`. -/
theorem gram_rhsIdx (p q : Fin 1024) (k : Fin 3) :
    dot_S1024x3_S3x1024_S1024x1024_1_0_0_1_n_n.rhsIdx (ix2 p q)
        ((contrEquiv1 dot_S1024x3_S3x1024_S1024x1024_1_0_0_1_n_n 3 rfl rfl).symm k) = ix2 k q := by
  have hk := contrEquiv1_symm_val dot_S1024x3_S3x1024_S1024x1024_1_0_0_1_n_n 3 rfl rfl k
  refine funext fun a => Fin.ext ?_
  match a with
  | ⟨0, _⟩ => exact (gram_rhs_0 _ _).trans hk
  | ⟨1, _⟩ => exact gram_rhs_1 _ _

/-- The matrix product of a block of points with a transposed block, accumulated into zero: entry `(p, q)` is the
    inner product of point `p` of the first with point `q` of the second. -/
theorem gram_apply (l : FVec Ideal S1024x3 .bf16) (r : FVec Ideal S3x1024 .bf16) (p q : Fin 1024) :
    matmul dot_S1024x3_S3x1024_S1024x1024_1_0_0_1_n_n none l r (constant (F := Ideal) S1024x1024 .f32 0x00000000#32) (ix2 p q)
      = ∑ d : Fin 3, l (ix2 p d) * r (ix2 d q) := by
  simp only [matmul]
  rw [Ideal.matmul_constant_zero_apply,
    ← Equiv.sum_comp (contrEquiv1 dot_S1024x3_S3x1024_S1024x1024_1_0_0_1_n_n 3 rfl rfl).symm]
  refine Finset.sum_congr rfl fun k _ => ?_
  rw [gram_lhsIdx, gram_rhsIdx]

/-! ## The table of squared distances -/

/-- Entry `(p, q)` of the table one grid point forms from its block `x0` of points and its transposed block `x1`:
    the squared distance from point `p` of the first to point `q` of the second, in the association
    (|x_p|^2 + |y_q|^2) - 2 <x_p, y_q>. -/
theorem tile_sqd (x0 : Vec Ideal S1x1024x3 .f32) (x1 : Vec Ideal S1x3x1024 .f32) (p q : Fin 1024) :
    k0_pay5 (F := Ideal) x0 x1 (ix2 p q)
      = ((∑ d : Fin 3, x0 (ix3 0 p d) * x0 (ix3 0 p d)) + (∑ d : Fin 3, x1 (ix3 0 d q) * x1 (ix3 0 d q)))
        - Chamfer.two * (∑ d : Fin 3, x0 (ix3 0 p d) * x1 (ix3 0 d q)) := by
  unfold k0_pay5
  dsimp only
  rw [subf_apply, addf_apply, mulf_apply, broadcast_apply, rowNorm_apply, colNorm_apply, gram_apply]
  simp only [truncf_apply, shapeCast_1ab_ab_apply]
  rfl

/-! ## Minima along a row and along a column -/

/-- The minimum of a table along each row, started from the infinity word: at row `p` the infimum of the row. -/
theorem rowMin_apply (v : FVec Ideal S1024x1024 .f32) (p : Fin 1024) :
    multiReduction (F := Ideal) .minimumf [1] S1024 v 0x7F800000#32 reduces_S1024x1024_S1024 (.inl rfl) rfl (ix1 p)
      = Finset.univ.inf fun q : Fin 1024 => v (ix2 p q) := by
  refine (MinAxis.min_single v _ _ _ _ (ix1 p)).trans ?_
  show (Finset.univ : Finset (Fin 1024)).fold min (Ideal.ofBits .f32 0x7F800000#32)
      (fun q => v (reduces_S1024x1024_S1024.lift (ix1 p) q)) = _
  rw [Chamfer.inf_word]
  refine (MinAxis.fold_min_top _ _).trans ?_
  refine congrArg (Finset.univ.inf) (funext fun q => congrArg v (funext fun c => Fin.ext ?_))
  match c with
  | ⟨0, _⟩ => rfl
  | ⟨1, _⟩ => rfl

/-- The minimum of a table along each column, started from the infinity word: at column `q` the infimum of the
    column. -/
theorem colMin_apply (v : FVec Ideal S1024x1024 .f32) (q : Fin 1024) :
    multiReduction (F := Ideal) .minimumf [0] S1024 v 0x7F800000#32 reduces_S1024x1024_S1024_2 (.inl rfl) rfl (ix1 q)
      = Finset.univ.inf fun p : Fin 1024 => v (ix2 p q) := by
  refine (MinAxis.min_single v _ _ _ _ (ix1 q)).trans ?_
  show (Finset.univ : Finset (Fin 1024)).fold min (Ideal.ofBits .f32 0x7F800000#32)
      (fun p => v (reduces_S1024x1024_S1024_2.lift (ix1 q) p)) = _
  rw [Chamfer.inf_word]
  refine (MinAxis.fold_min_top _ _).trans ?_
  refine congrArg (Finset.univ.inf) (funext fun p => congrArg v (funext fun c => Fin.ext ?_))
  match c with
  | ⟨0, _⟩ => rfl
  | ⟨1, _⟩ => rfl

/-! ## The running minima: where they start, and one grid point's update -/

/-- Every index of a `[1, 1024, 1]` block is `(0, p, 0)`. -/
theorem exists_ix_row (i : S1x1024x1.Idx) : ∃ p : Fin 1024, i = ix3 (0 : Fin 1) p (0 : Fin 1) := by
  refine ⟨i 1, funext fun a => Fin.ext ?_⟩
  match a with
  | ⟨0, _⟩ => have h : (i ⟨0, by decide⟩).val < 1 := (i _).isLt; show (i ⟨0, _⟩).val = 0; omega
  | ⟨1, _⟩ => rfl
  | ⟨2, _⟩ => have h : (i ⟨2, by decide⟩).val < 1 := (i _).isLt; show (i ⟨2, _⟩).val = 0; omega

/-- Every index of a `[1, 1, 1024]` block is `(0, 0, q)`. -/
theorem exists_ix_col (i : S1x1x1024.Idx) : ∃ q : Fin 1024, i = ix3 (0 : Fin 1) (0 : Fin 1) q := by
  refine ⟨i 2, funext fun a => Fin.ext ?_⟩
  match a with
  | ⟨0, _⟩ => have h : (i ⟨0, by decide⟩).val < 1 := (i _).isLt; show (i ⟨0, _⟩).val = 0; omega
  | ⟨1, _⟩ => have h : (i ⟨1, by decide⟩).val < 1 := (i _).isLt; show (i ⟨1, _⟩).val = 0; omega
  | ⟨2, _⟩ => rfl

/-- Every index of the `[1, 1, 8192]` array of column minima is `(0, 0, q)`. -/
theorem exists_ix_colAll (i : S1x1x8192.Idx) : ∃ q : Fin 8192, i = ix3 (0 : Fin 1) (0 : Fin 1) q := by
  refine ⟨i 2, funext fun a => Fin.ext ?_⟩
  match a with
  | ⟨0, _⟩ => have h : (i ⟨0, by decide⟩).val < 1 := (i _).isLt; show (i ⟨0, _⟩).val = 0; omega
  | ⟨1, _⟩ => have h : (i ⟨1, by decide⟩).val < 1 := (i _).isLt; show (i ⟨1, _⟩).val = 0; omega
  | ⟨2, _⟩ => rfl

/-- The running row minima start from the top element. -/
theorem row_init (p : Fin 1024) : k0_pay3 (F := Ideal) (ix3 0 p 0) = ⊤ := by
  unfold k0_pay3
  rw [shapeCast_ab_1ab_apply, broadcast_apply]
  exact Chamfer.inf_word

/-- The running column minima start from the top element. -/
theorem col_init (q : Fin 8192) : k0_pay4 (F := Ideal) (ix3 0 0 q) = ⊤ := by
  unfold k0_pay4
  rw [shapeCast_ab_1ab_apply, broadcast_apply]
  exact Chamfer.inf_word

/-- One grid point's update of the running row minima: at point `p` the minimum of the value so far and the infimum of
    row `p` of the grid point's table. -/
theorem row_update (x0 : Vec Ideal S1x1024x3 .f32) (x1 : Vec Ideal S1x3x1024 .f32) (xo : Vec Ideal S1x1024x1 .f32)
    (p : Fin 1024) :
    k0_pay1 (F := Ideal) (k0_pay6 (F := Ideal) x0 x1 xo) (ix3 0 p 0)
      = min (xo (ix3 0 p 0)) (Finset.univ.inf fun q : Fin 1024 => k0_pay5 (F := Ideal) x0 x1 (ix2 p q)) := by
  unfold k0_pay1 k0_pay6
  dsimp only
  rw [shapeCast_ab_1ab_apply, minimumf_apply, shapeCast_1ab_ab_apply, LibColumn.shapeCast_a_a1_apply, rowMin_apply]

/-- One grid point's update of the running column minima: at point `q` the minimum of the value so far and the infimum
    of column `q` of the grid point's table. -/
theorem col_update (v26 : FVec Ideal S1024x1024 .f32) (v40 : Vec Ideal S1x1x1024 .f32) (q : Fin 1024) :
    k0_pay2 (F := Ideal) v26 v40 (ix3 0 0 q)
      = min (v40 (ix3 0 0 q)) (Finset.univ.inf fun p : Fin 1024 => v26 (ix2 p q)) := by
  unfold k0_pay2
  dsimp only
  rw [shapeCast_ab_1ab_apply, minimumf_apply, shapeCast_1ab_ab_apply, shapeCast_a_1a_apply, colMin_apply]

end Cert.KernelIdeal.Tile

end
-- ==== Proof.Inv.lean ====
/-
  The two running minima after each of the 256 grid points, by induction over the points in the order they run.

  Point `n` works on batch `n / 64`, on row tile `i = n / 8 % 8` (points `i * 1024 … i * 1024 + 1023` of the first
  cloud) and on column tile `j = n % 8` (points `j * 1024 … j * 1024 + 1023` of the second).

  The row accumulator restarts from the top element at `j = 0`, and each point folds in the row minima of its tile:
  after point `n` it holds, for each point of the row tile, the least squared distance to the first `(j + 1) * 1024`
  points of the second cloud.

  The column accumulator restarts at the first point of a batch, and a point touches only the 1024 columns of its own
  column tile: after point `n`, column `Q` (in column tile `J = Q / 1024`) has been touched by the row tiles
  `0 … i` if `J ≤ j` and `0 … i - 1` if `J > j`, that is by `(n % 64 + 8 - J) / 8` row tiles, and holds the least
  squared distance from that many times 1024 first points of the first cloud.

  Both statements are the law  inf below (k + 1) tiles = min (inf below k tiles) (inf over tile k)  applied once per
  point.
-/
import proofs.«134801_j481036337470_2_alg».proof.Proof.AccI
import proofs.«134801_j481036337470_2_alg».proof.Proof.Tile
import proofs.«134801_j481036337470_2_alg».proof.Proof.RefSide
import proofs.«134801_j481036337470_2_alg».proof.Proof.Spec

noncomputable section

namespace Cert.KernelIdeal.Inv

open Cert.KernelIdeal Cert.KernelIdeal.Gen Idealize.ShloMosaic Idealize.ShloMosaic.ValueIdx

variable (X Y : Chamfer.Cloud.Idx → EReal)

/-! ## Equal arguments, given by their values -/

theorem rowPre_congr {b b' : Fin 4} {P P' : Fin 8192} {k k' : ℕ} (hb : b.val = b'.val) (hP : P.val = P'.val)
    (hk : k = k') : Chamfer.rowPre X Y b P k = Chamfer.rowPre X Y b' P' k' := by
  subst hk
  rw [Fin.ext hb, Fin.ext hP]

theorem colPre_congr {b b' : Fin 4} {Q Q' : Fin 8192} {k k' : ℕ} (hb : b.val = b'.val) (hQ : Q.val = Q'.val)
    (hk : k = k') : Chamfer.colPre X Y b Q k = Chamfer.colPre X Y b' Q' k' := by
  subst hk
  rw [Fin.ext hb, Fin.ext hQ]

/-! ## One grid point's tile of squared distances -/

/-- If the point's two blocks hold the points `pt p` of the first cloud and `qt q` of the second, batch `b`, its
    table of squared distances is the specification's at those points. -/
theorem tile_eq (x0 : Vec Ideal S1x1024x3 .f32) (x1 : Vec Ideal S1x3x1024 .f32) (b : Fin 4)
    (pt qt : Fin 1024 → Fin 8192)
    (h0 : ∀ (p : Fin 1024) (d : Fin 3), x0 (ix3 0 p d) = X (ix3 b (pt p) d))
    (h1 : ∀ (d : Fin 3) (q : Fin 1024), x1 (ix3 0 d q) = Y (ix3 b (qt q) d)) (p q : Fin 1024) :
    k0_pay5 (F := Ideal) x0 x1 (ix2 p q) = Chamfer.sqd X Y b (pt p) (qt q) := by
  rw [Tile.tile_sqd]
  unfold Chamfer.sqd Chamfer.nrm Chamfer.dot
  simp only [h0, h1]

/-! ## The row accumulator over one point -/

/-- If the row accumulator holds the least squared distances to the first `j` column tiles, after the point on column
    tile `j` it holds those to the first `j + 1`. -/
theorem row_step (x0 : Vec Ideal S1x1024x3 .f32) (x1 : Vec Ideal S1x3x1024 .f32) (xo : Vec Ideal S1x1024x1 .f32)
    (b : Fin 4) (pt qt : Fin 1024 → Fin 8192) (j : ℕ) (hj : j < 8)
    (hqt : ∀ q : Fin 1024, (qt q).val = j * 1024 + q.val)
    (h0 : ∀ (p : Fin 1024) (d : Fin 3), x0 (ix3 0 p d) = X (ix3 b (pt p) d))
    (h1 : ∀ (d : Fin 3) (q : Fin 1024), x1 (ix3 0 d q) = Y (ix3 b (qt q) d))
    (ho : ∀ p : Fin 1024, xo (ix3 0 p 0) = Chamfer.rowPre X Y b (pt p) (j * 1024)) (p : Fin 1024) :
    Hand.rowNew x0 x1 xo (ix3 0 p 0) = Chamfer.rowPre X Y b (pt p) ((j + 1) * 1024) := by
  show k0_pay1 (F := Ideal) (k0_pay6 (F := Ideal) x0 x1 xo) (ix3 0 p 0) = _
  rw [Tile.row_update, ho p]
  refine Eq.trans ?_ (Chamfer.Tiling.inf_below_succ (fun q => Chamfer.sqd X Y b (pt p) q) j hj).symm
  refine congrArg (min _) (congrArg Finset.univ.inf (funext fun q => ?_))
  rw [tile_eq X Y x0 x1 b pt qt h0 h1 p q]
  exact congrArg (Chamfer.sqd X Y b (pt p)) (Fin.ext (hqt q))

/-! ## The column accumulator over one point -/

/-- What a point writes at column `Q` of the column accumulator, its column tile being `j`: inside the tile the
    minimum of what was there and the tile's column minimum at the local column, outside it what was there. -/
theorem col_core (v26 : FVec Ideal S1024x1024 .f32) (xo : Vec Ideal S1x1x8192 .f32) (off : Fin 3 → ℕ)
    (inb : ∀ a, off a + S1x1x1024.size a ≤ S1x1x8192.size a) (j : ℕ) (hoff : off = ![0, 0, j * 1024])
    (Q : Fin 8192) :
    (if h : ∀ a, off a ≤ ((ix3 (0 : Fin 1) (0 : Fin 1) Q : S1x1x8192.Idx) a).val
          ∧ ((ix3 (0 : Fin 1) (0 : Fin 1) Q : S1x1x8192.Idx) a).val < off a + S1x1x1024.size a then
        k0_pay2 (F := Ideal) v26 (View.ld xo (Rect.unit (s := S1x1x8192) off S1x1x1024.size inb))
          (Rect.unitLocal (s := S1x1x8192) (off := off) (size := S1x1x1024.size) (ix3 0 0 Q) h)
      else xo (ix3 0 0 Q))
      = if Q.val / 1024 = j then
          min (xo (ix3 0 0 Q))
            (Finset.univ.inf fun p : Fin 1024 => v26 (ix2 p ⟨Q.val % 1024, Nat.mod_lt _ (by decide)⟩))
        else xo (ix3 0 0 Q) := by
  subst hoff
  by_cases hQ : Q.val / 1024 = j
  · have h : ∀ a, (![0, 0, j * 1024] : Fin 3 → ℕ) a ≤ ((ix3 (0 : Fin 1) (0 : Fin 1) Q : S1x1x8192.Idx) a).val
        ∧ ((ix3 (0 : Fin 1) (0 : Fin 1) Q : S1x1x8192.Idx) a).val
            < (![0, 0, j * 1024] : Fin 3 → ℕ) a + S1x1x1024.size a := by
      intro a
      match a with
      | ⟨0, _⟩ => exact ⟨Nat.le_refl 0, Nat.one_pos⟩
      | ⟨1, _⟩ => exact ⟨Nat.le_refl 0, Nat.one_pos⟩
      | ⟨2, _⟩ =>
        show j * 1024 ≤ Q.val ∧ Q.val < j * 1024 + 1024
        omega
    have e : Rect.unitLocal (s := S1x1x8192) (off := ![0, 0, j * 1024]) (size := S1x1x1024.size) (ix3 0 0 Q) h
        = ix3 (0 : Fin 1) (0 : Fin 1) (⟨Q.val % 1024, Nat.mod_lt _ (by decide)⟩ : Fin 1024) :=
      funext fun a => Fin.ext (by
        match a with
        | ⟨0, _⟩ => rfl
        | ⟨1, _⟩ => rfl
        | ⟨2, _⟩ =>
          show Q.val - j * 1024 = Q.val % 1024
          omega)
    rw [dif_pos h, if_pos hQ, e, Tile.col_update]
    refine congrArg (min · _) (congrArg xo (funext fun a => Fin.ext ?_))
    match a with
    | ⟨0, _⟩ => rfl
    | ⟨1, _⟩ => rfl
    | ⟨2, _⟩ =>
      show j * 1024 + 1 * (Q.val % 1024) = Q.val
      omega
  · have hn : ¬ ∀ a, (![0, 0, j * 1024] : Fin 3 → ℕ) a ≤ ((ix3 (0 : Fin 1) (0 : Fin 1) Q : S1x1x8192.Idx) a).val
        ∧ ((ix3 (0 : Fin 1) (0 : Fin 1) Q : S1x1x8192.Idx) a).val
            < (![0, 0, j * 1024] : Fin 3 → ℕ) a + S1x1x1024.size a := fun h => hQ (by
      have h2 := h ⟨2, by decide⟩
      change j * 1024 ≤ Q.val ∧ Q.val < j * 1024 + 1024 at h2
      omega)
    rw [dif_neg hn, if_neg hQ]

/-- If before the point `m = 8 * i + j` of a batch (row tile `i`, column tile `j`) column `Q` holds the least squared
    distance from the first `(m + 7 - Q / 1024) / 8` row tiles, after it column `Q` holds that from the first
    `(m + 8 - Q / 1024) / 8`: one more in the point's own column tile, the same elsewhere. -/
theorem col_step (x0 : Vec Ideal S1x1024x3 .f32) (x1 : Vec Ideal S1x3x1024 .f32) (xo : Vec Ideal S1x1x8192 .f32)
    (c : grid0.Coords) (b : Fin 4) (pt qt : Fin 1024 → Fin 8192) (i j m : ℕ) (hi : i < 8) (hj : j < 8)
    (hm : m = 8 * i + j) (hc : k0_off1 c = ![0, 0, j * 1024])
    (hpt : ∀ p : Fin 1024, (pt p).val = i * 1024 + p.val)
    (hqt : ∀ q : Fin 1024, (qt q).val = j * 1024 + q.val)
    (h0 : ∀ (p : Fin 1024) (d : Fin 3), x0 (ix3 0 p d) = X (ix3 b (pt p) d))
    (h1 : ∀ (d : Fin 3) (q : Fin 1024), x1 (ix3 0 d q) = Y (ix3 b (qt q) d))
    (ho : ∀ Q : Fin 8192, xo (ix3 0 0 Q) = Chamfer.colPre X Y b Q ((m + 7 - Q.val / 1024) / 8 * 1024))
    (Q : Fin 8192) :
    Hand.colNew c x0 x1 xo (ix3 0 0 Q) = Chamfer.colPre X Y b Q ((m + 8 - Q.val / 1024) / 8 * 1024) := by
  have hQ8 : Q.val / 1024 < 8 := by have := Q.isLt; omega
  refine (col_core (k0_pay5 (F := Ideal) x0 x1) xo (k0_off1 c) (k0_off1_inb c) j hc Q).trans ?_
  by_cases hJ : Q.val / 1024 = j
  · have e1 : (m + 7 - Q.val / 1024) / 8 = i := by omega
    have e2 : (m + 8 - Q.val / 1024) / 8 = i + 1 := by omega
    rw [if_pos hJ, ho Q, e1, e2]
    refine Eq.trans ?_ (Chamfer.Tiling.inf_below_succ (fun p => Chamfer.sqd X Y b p Q) i hi).symm
    refine congrArg (min _) (congrArg Finset.univ.inf (funext fun p => ?_))
    rw [tile_eq X Y x0 x1 b pt qt h0 h1 p ⟨Q.val % 1024, Nat.mod_lt _ (by decide)⟩]
    have eq : qt ⟨Q.val % 1024, Nat.mod_lt _ (by decide)⟩ = Q := Fin.ext (by
      rw [hqt]
      show j * 1024 + Q.val % 1024 = Q.val
      omega)
    have ep : pt p = ⟨i * 1024 + p.val, by omega⟩ := Fin.ext (hpt p)
    rw [eq, ep]
  · have e : (m + 7 - Q.val / 1024) / 8 = (m + 8 - Q.val / 1024) / 8 := by omega
    rw [if_neg hJ, ho Q, e]

/-! ## All 256 points -/

/-- After point `n` the row accumulator holds, for the points of row tile `n / 8 % 8`, the least squared distance to
    the first `(n % 8 + 1) * 1024` points of the second cloud, and column `Q` of the column accumulator holds the least
    squared distance from the first `(n % 64 + 8 - Q / 1024) / 8 * 1024` points of the first cloud. -/
theorem acc_inv (N : ℕ) (hN : N = 256)
    (B0 : (n : ℕ) → n < N → Vec Ideal S1x1024x3 .f32) (B1 : (n : ℕ) → n < N → Vec Ideal S1x3x1024 .f32)
    (co : (n : ℕ) → n < N → grid0.Coords)
    (R : (n : ℕ) → n < N → Vec Ideal S1x1024x1 .f32 × Vec Ideal S1x1x8192 .f32)
    (hR : ∀ n (hn : n < N), R n hn
      = (Hand.rowNew (B0 n hn) (B1 n hn) (if n % 8 = 0 then k0_pay3 (F := Ideal) else (R (n - 1) (by omega)).1),
         Hand.colNew (co n hn) (B0 n hn) (B1 n hn)
           (if n % 64 = 0 then k0_pay4 (F := Ideal) else (R (n - 1) (by omega)).2)))
    (hoff : ∀ n hn, k0_off1 (co n hn) = ![0, 0, (n % 8) * 1024])
    (hB0 : ∀ n hn (p : Fin 1024) (d : Fin 3),
      B0 n hn (ix3 0 p d) = X (ix3 ⟨n / 64, by omega⟩ ⟨(n / 8 % 8) * 1024 + p.val, by omega⟩ d))
    (hB1 : ∀ n hn (d : Fin 3) (q : Fin 1024),
      B1 n hn (ix3 0 d q) = Y (ix3 ⟨n / 64, by omega⟩ ⟨(n % 8) * 1024 + q.val, by omega⟩ d)) :
    ∀ n (hn : n < N),
      (∀ p : Fin 1024, (R n hn).1 (ix3 0 p 0)
        = Chamfer.rowPre X Y ⟨n / 64, by omega⟩ ⟨(n / 8 % 8) * 1024 + p.val, by omega⟩ ((n % 8 + 1) * 1024))
      ∧ (∀ Q : Fin 8192, (R n hn).2 (ix3 0 0 Q)
        = Chamfer.colPre X Y ⟨n / 64, by omega⟩ Q (((n % 64 + 8 - Q.val / 1024) / 8) * 1024)) := by
  subst hN
  intro n
  induction n using Nat.strong_induction_on with
  | _ n ih =>
    intro hn
    have hr1 : (R n hn).1 = Hand.rowNew (B0 n hn) (B1 n hn)
        (if n % 8 = 0 then k0_pay3 (F := Ideal) else (R (n - 1) (by omega)).1) := congrArg Prod.fst (hR n hn)
    have hr2 : (R n hn).2 = Hand.colNew (co n hn) (B0 n hn) (B1 n hn)
        (if n % 64 = 0 then k0_pay4 (F := Ideal) else (R (n - 1) (by omega)).2) := congrArg Prod.snd (hR n hn)
    refine ⟨fun p => ?_, fun Q => ?_⟩
    · rw [hr1]
      refine row_step X Y (B0 n hn) (B1 n hn) _ ⟨n / 64, by omega⟩
        (fun p => ⟨(n / 8 % 8) * 1024 + p.val, by omega⟩) (fun q => ⟨(n % 8) * 1024 + q.val, by omega⟩)
        (n % 8) (by omega) (fun _ => rfl) (hB0 n hn) (hB1 n hn) (fun p' => ?_) p
      by_cases h8 : n % 8 = 0
      · rw [if_pos h8, Tile.row_init, h8]
        exact (Chamfer.Tiling.inf_below_zero _).symm
      · rw [if_neg h8]
        refine ((ih (n - 1) (by omega) (by omega)).1 p').trans ?_
        exact rowPre_congr X Y (by show (n - 1) / 64 = n / 64; omega)
          (by show ((n - 1) / 8 % 8) * 1024 + p'.val = (n / 8 % 8) * 1024 + p'.val; omega) (by omega)
    · rw [hr2]
      refine col_step X Y (B0 n hn) (B1 n hn) _ (co n hn) ⟨n / 64, by omega⟩
        (fun p => ⟨(n / 8 % 8) * 1024 + p.val, by omega⟩) (fun q => ⟨(n % 8) * 1024 + q.val, by omega⟩)
        (n / 8 % 8) (n % 8) (n % 64) (by omega) (by omega) (by omega) (hoff n hn) (fun _ => rfl) (fun _ => rfl)
        (hB0 n hn) (hB1 n hn) (fun Q' => ?_) Q
      have hQ8 : Q'.val / 1024 < 8 := by have := Q'.isLt; omega
      by_cases h64 : n % 64 = 0
      · have e : (n % 64 + 7 - Q'.val / 1024) / 8 * 1024 = 0 := by omega
        rw [if_pos h64, Tile.col_init, e]
        exact (Chamfer.Tiling.inf_below_zero _).symm
      · rw [if_neg h64]
        refine ((ih (n - 1) (by omega) (by omega)).2 Q').trans ?_
        exact colPre_congr X Y (by show (n - 1) / 64 = n / 64; omega) rfl (by omega)

/-- At the last column tile of a row of points the row accumulator holds the least squared distance to every point of
    the second cloud. -/
theorem row_final (N : ℕ) (hN : N = 256)
    (B0 : (n : ℕ) → n < N → Vec Ideal S1x1024x3 .f32) (B1 : (n : ℕ) → n < N → Vec Ideal S1x3x1024 .f32)
    (co : (n : ℕ) → n < N → grid0.Coords)
    (R : (n : ℕ) → n < N → Vec Ideal S1x1024x1 .f32 × Vec Ideal S1x1x8192 .f32)
    (hR : ∀ n (hn : n < N), R n hn
      = (Hand.rowNew (B0 n hn) (B1 n hn) (if n % 8 = 0 then k0_pay3 (F := Ideal) else (R (n - 1) (by omega)).1),
         Hand.colNew (co n hn) (B0 n hn) (B1 n hn)
           (if n % 64 = 0 then k0_pay4 (F := Ideal) else (R (n - 1) (by omega)).2)))
    (hoff : ∀ n hn, k0_off1 (co n hn) = ![0, 0, (n % 8) * 1024])
    (hB0 : ∀ n hn (p : Fin 1024) (d : Fin 3),
      B0 n hn (ix3 0 p d) = X (ix3 ⟨n / 64, by omega⟩ ⟨(n / 8 % 8) * 1024 + p.val, by omega⟩ d))
    (hB1 : ∀ n hn (d : Fin 3) (q : Fin 1024),
      B1 n hn (ix3 0 d q) = Y (ix3 ⟨n / 64, by omega⟩ ⟨(n % 8) * 1024 + q.val, by omega⟩ d))
    (n : ℕ) (hn : n < N) (h7 : n % 8 = 7) (p : Fin 1024) :
    (R n hn).1 (ix3 0 p 0)
      = Chamfer.rowMin X Y ⟨n / 64, by omega⟩ ⟨(n / 8 % 8) * 1024 + p.val, by omega⟩ := by
  refine ((acc_inv X Y N hN B0 B1 co R hR hoff hB0 hB1 n hn).1 p).trans ?_
  have e : (n % 8 + 1) * 1024 = 8192 := by omega
  rw [e]
  exact Chamfer.Tiling.inf_below_all _

/-- At the last point of a batch the column accumulator holds the least squared distance from every point of the first
    cloud. -/
theorem col_final (N : ℕ) (hN : N = 256)
    (B0 : (n : ℕ) → n < N → Vec Ideal S1x1024x3 .f32) (B1 : (n : ℕ) → n < N → Vec Ideal S1x3x1024 .f32)
    (co : (n : ℕ) → n < N → grid0.Coords)
    (R : (n : ℕ) → n < N → Vec Ideal S1x1024x1 .f32 × Vec Ideal S1x1x8192 .f32)
    (hR : ∀ n (hn : n < N), R n hn
      = (Hand.rowNew (B0 n hn) (B1 n hn) (if n % 8 = 0 then k0_pay3 (F := Ideal) else (R (n - 1) (by omega)).1),
         Hand.colNew (co n hn) (B0 n hn) (B1 n hn)
           (if n % 64 = 0 then k0_pay4 (F := Ideal) else (R (n - 1) (by omega)).2)))
    (hoff : ∀ n hn, k0_off1 (co n hn) = ![0, 0, (n % 8) * 1024])
    (hB0 : ∀ n hn (p : Fin 1024) (d : Fin 3),
      B0 n hn (ix3 0 p d) = X (ix3 ⟨n / 64, by omega⟩ ⟨(n / 8 % 8) * 1024 + p.val, by omega⟩ d))
    (hB1 : ∀ n hn (d : Fin 3) (q : Fin 1024),
      B1 n hn (ix3 0 d q) = Y (ix3 ⟨n / 64, by omega⟩ ⟨(n % 8) * 1024 + q.val, by omega⟩ d))
    (n : ℕ) (hn : n < N) (h63 : n % 64 = 63) (Q : Fin 8192) :
    (R n hn).2 (ix3 0 0 Q) = Chamfer.colMin X Y ⟨n / 64, by omega⟩ Q := by
  refine ((acc_inv X Y N hN B0 B1 co R hR hoff hB0 hB1 n hn).2 Q).trans ?_
  have e : (n % 64 + 8 - Q.val / 1024) / 8 * 1024 = 8192 := by have := Q.isLt; omega
  rw [e]
  exact Chamfer.Tiling.inf_below_all _

end Cert.KernelIdeal.Inv

end
-- ==== Proof.Blocks.lean ====
/-
  Where the blocks of the tiled computation lie in its arrays, and what the program does after the tiles.

  The grid has 4 x 8 x 8 points, run in row-major order: point t works on batch t / 64, on the block of 1024 points
  number (t / 8) % 8 of the first cloud and on the block number t % 8 of the second cloud. The first cloud is read as
  it is, a block being 1024 consecutive points; the second cloud is read through its transpose, a block being 1024
  consecutive lanes. The array of row minima is written back one block of 1024 points at a time, after the last block
  of the second cloud; the array of column minima one whole batch at a time, after the last point of the batch. So
  once every point has run each of the two arrays is one function of (batch, point), and the program's remaining
  operations are applied to those two functions.
-/
import proofs.«134801_j481036337470_2_alg».proof.Proof.Gen.KernelIdeal.Frame
import proofs.«134801_j481036337470_2_alg».proof.Proof.Gen.KernelIdeal.Launch
import proofs.«134801_j481036337470_2_alg».proof.Proof.Gen.KernelIdeal.Points
import proofs.«134801_j481036337470_2_alg».proof.Proof.Spec
import proofs.«134801_j481036337470_2_alg».proof.Proof.RefSide
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (m : (ℓ : Loc nD τ sig) → Buf (Elt Ideal) ℓ)

/-! ## The grid's points -/

/-- There are 256 points. -/
theorem t_lt (t : Fin cfg0.N) : t.val < 256 := by
  exact Nat.lt_of_lt_of_eq t.isLt N_0

/-- The batch point `t` works on. -/
abbrev batch (t : Fin cfg0.N) : Fin 4 := ⟨t.val / 64, by have := t_lt t; omega⟩

/-- Point `p` of the block of the first cloud that point `t` works on, as a point of the cloud. -/
abbrev rowPt (t : Fin cfg0.N) (p : Fin 1024) : Fin 8192 := ⟨(t.val / 8 % 8) * 1024 + p.val, by have := p.isLt; omega⟩

/-- Point `q` of the block of the second cloud that point `t` works on, as a point of the cloud. -/
abbrev colPt (t : Fin cfg0.N) (q : Fin 1024) : Fin 8192 := ⟨(t.val % 8) * 1024 + q.val, by have := q.isLt; omega⟩

/-- The lane offset at which a point updates the column minima: its block of the second cloud. -/
theorem off_apply (t : Fin cfg0.N) : k0_off1 (grid0.coords t) = ![0, 0, (t.val % 8) * 1024] :=
  (by decide +kernel : ∀ t : Fin grid0.N, k0_off1 (grid0.coords t) = ![0, 0, (t.val % 8) * 1024]) t

/-- The four windows' block indices at a point, decided over the grid. -/
theorem idx_facts : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = 0 ∧ win0_1.index t (2 : Fin 3) = t.val % 8
    ∧ win0_2.index t (0 : Fin 3) = t.val / 64 ∧ win0_2.index t (1 : Fin 3) = t.val / 8 % 8 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

/-! ## The input blocks -/

/-- The second cloud enters the tiles transposed. -/
theorem V_main_v0 (c : Dev nD) :
    (V m c main_v0 : S4x3x8192.Idx → Elt Ideal .f32)
      = transpose S4x3x8192 [0, 2, 1] (m ((c : Thread nD τ).loc main_arg1) : S4x8192x3.Idx → Elt Ideal .f32)
          transposes_S4x8192x3_S4x3x8192_0_2_1 := by
  show StableHlo.after hostOps0 (fun b => m (c, b)) (Proc.devRef .tc main_v0) = _
  after_results

/-- The first cloud's block at a point: coordinate `d` of its point `p` is that coordinate of the cloud's point. -/
theorem iblk0_apply (c : Dev nD) (t : Fin cfg0.N) (p : Fin 1024) (d : Fin 3) :
    (iblk m c 0 t : S1x1024x3.Idx → Elt Ideal .f32) (ix3 0 p d)
      = (m ((c : Thread nD τ).loc main_arg0) : S4x8192x3.Idx → Elt Ideal .f32) (ix3 (batch t) (rowPt t p) d) := by
  obtain ⟨e0, e1, e2, -⟩ := idx_facts t
  show V m c main_arg0 (((cfg0.win 0).blk t).view.emb (ix3 0 p d)) = _
  rw [V_main_arg0]
  refine congrArg (m ((c : Thread nD τ).loc main_arg0) : S4x8192x3.Idx → Elt Ideal .f32) (funext fun a => Fin.ext ?_)
  match a with
  | ⟨0, _⟩ => show win0_0.index t (0 : Fin 3) * 1 + 1 * 0 = t.val / 64; omega
  | ⟨1, _⟩ => show win0_0.index t (1 : Fin 3) * 1024 + 1 * p.val = (t.val / 8 % 8) * 1024 + p.val; omega
  | ⟨2, _⟩ => show win0_0.index t (2 : Fin 3) * 3 + 1 * d.val = d.val; omega

/-- The second cloud's block at a point: coordinate `d` of its point `q` is that coordinate of the cloud's point. -/
theorem iblk1_apply (c : Dev nD) (t : Fin cfg0.N) (d : Fin 3) (q : Fin 1024) :
    (iblk m c 1 t : S1x3x1024.Idx → Elt Ideal .f32) (ix3 0 d q)
      = (m ((c : Thread nD τ).loc main_arg1) : S4x8192x3.Idx → Elt Ideal .f32) (ix3 (batch t) (colPt t q) d) := by
  obtain ⟨-, -, -, e0, e1, e2, -⟩ := idx_facts t
  show V m c main_v0 (((cfg0.win 1).blk t).view.emb (ix3 0 d q)) = _
  rw [V_main_v0]
  have hi : ((cfg0.win 1).blk t).view.emb (ix3 (0 : Fin 1) d q) = ix3 (batch t) d (colPt t q) := by
    refine funext fun a => Fin.ext ?_
    match a with
    | ⟨0, _⟩ => show win0_1.index t (0 : Fin 3) * 1 + 1 * 0 = t.val / 64; omega
    | ⟨1, _⟩ => show win0_1.index t (1 : Fin 3) * 3 + 1 * d.val = d.val; omega
    | ⟨2, _⟩ => show win0_1.index t (2 : Fin 3) * 1024 + 1 * q.val = (t.val % 8) * 1024 + q.val; omega
  rw [hi]
  exact transpose_ix3_021_apply _ _ (batch t) d (colPt t q)

/-! ## The output arrays once every point has run -/

/-- An index of the array of row minima is in the block of point `t` iff each coordinate is in the block's range. -/
theorem mem_blk2 (t : Fin cfg0.N) (i : S4x8192x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v1_0).slice (win0_2.rect t)).set ↔ _
  rw [View.set_slice_whole, Rect.mem_set_unit]
  exact Iff.rfl

/-- An index of the array of column minima is in the block of point `t` iff each coordinate is in the block's range. -/
theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v1_1).slice (win0_3.rect t)).set ↔ _
  rw [View.set_slice_whole, Rect.mem_set_unit]
  exact Iff.rfl

/-- THE ROW MINIMA after the run. If at every point that ends a sweep over the second cloud's blocks the staged block
    holds `g` of (the point's batch, the block's points of the first cloud), the array ends holding `g` of (batch, point):
    the blocks written back at those points tile it. -/
theorem final2 {c : Dev nD} (dat : Dat τ (Elt Ideal) Unit ℕ (UR sig nD τ) ℕ cfg0 c) (g : Fin 4 → Fin 8192 → EReal)
    (h : ∀ t : Fin cfg0.N, t.val % 8 = 7 → ∀ p : Fin 1024, dat.after 2 t (ix3 0 p 0) = g (batch t) (rowPt t p)) :
    dat.arrAt 2 cfg0.N = (fun i => g (i 0) (i 1) : S4x8192x1.Idx → EReal) := by
  refine dat.arrAt_eq_of_cover 2 _ (fun t hf => ?_) (fun i => ?_)
  · have ht : t.val % 8 = 7 := (flush0_2 t).mp hf
    obtain ⟨-, -, -, -, -, -, e0, e1, e2, -⟩ := idx_facts t
    funext j
    have hj0 : (j 0).val < 1 := (j 0).isLt
    have hj1 : (j 1).val < 1024 := (j 1).isLt
    have hj2 : (j 2).val < 1 := (j 2).isLt
    show dat.after 2 t ((cfg0.win 2).xinj (grid0.coords t) j)
      = g ((((cfg0.win 2).blk t).view.emb j) 0) ((((cfg0.win 2).blk t).view.emb j) 1)
    have hj : (cfg0.win 2).xinj (grid0.coords t) j = ix3 (0 : Fin 1) (⟨(j 1).val, hj1⟩ : Fin 1024) (0 : Fin 1) := by
      refine funext fun a => Fin.ext ?_
      match a with
      | ⟨0, _⟩ => show (j 0).val = 0; omega
      | ⟨1, _⟩ => rfl
      | ⟨2, _⟩ => show (j 2).val = 0; omega
    rw [hj, h t ht]
    refine congrArg₂ g (Fin.ext ?_) (Fin.ext ?_)
    · show t.val / 64 = win0_2.index t (0 : Fin 3) * 1 + 1 * (j 0).val; omega
    · show (t.val / 8 % 8) * 1024 + (j 1).val = win0_2.index t (1 : Fin 3) * 1024 + 1 * (j 1).val; omega
  · have h0 : (i 0).val < 4 := (i 0).isLt
    have h1 : (i 1).val < 8192 := (i 1).isLt
    have h2 : (i 2).val < 1 := (i 2).isLt
    obtain ⟨t, htv⟩ : ∃ t : Fin cfg0.N, t.val = 64 * (i 0).val + 8 * ((i 1).val / 1024) + 7 :=
      ⟨⟨64 * (i 0).val + 8 * ((i 1).val / 1024) + 7, by rw [show cfg0.N = 256 from N_0]; omega⟩, rfl⟩
    obtain ⟨-, -, -, -, -, -, e0, e1, e2, -⟩ := idx_facts t
    refine ⟨t, (flush0_2 t).mpr (by omega), ?_⟩
    rw [mem_blk2]
    intro a
    match a with
    | ⟨0, _⟩ =>
      show win0_2.index t (0 : Fin 3) * 1 ≤ (i 0).val ∧ (i 0).val < win0_2.index t (0 : Fin 3) * 1 + 1; omega
    | ⟨1, _⟩ =>
      show win0_2.index t (1 : Fin 3) * 1024 ≤ (i 1).val ∧ (i 1).val < win0_2.index t (1 : Fin 3) * 1024 + 1024; omega
    | ⟨2, _⟩ =>
      show win0_2.index t (2 : Fin 3) * 1 ≤ (i 2).val ∧ (i 2).val < win0_2.index t (2 : Fin 3) * 1 + 1; omega

/-- THE COLUMN MINIMA after the run. If at the last point of every batch the staged block holds `g` of (the batch, the
    points of the second cloud), the array ends holding `g` of (batch, point): one block per batch, and they tile it. -/
theorem final3 {c : Dev nD} (dat : Dat τ (Elt Ideal) Unit ℕ (UR sig nD τ) ℕ cfg0 c) (g : Fin 4 → Fin 8192 → EReal)
    (h : ∀ t : Fin cfg0.N, t.val % 64 = 63 → ∀ Q : Fin 8192, dat.after 3 t (ix3 0 0 Q) = g (batch t) Q) :
    dat.arrAt 3 cfg0.N = (fun i => g (i 0) (i 2) : S4x1x8192.Idx → EReal) := by
  refine dat.arrAt_eq_of_cover 3 _ (fun t hf => ?_) (fun i => ?_)
  · have ht : t.val % 64 = 63 := (flush0_3 t).mp hf
    obtain ⟨-, -, -, -, -, -, -, -, -, e0, e1, e2⟩ := idx_facts t
    funext j
    have hj0 : (j 0).val < 1 := (j 0).isLt
    have hj1 : (j 1).val < 1 := (j 1).isLt
    have hj2 : (j 2).val < 8192 := (j 2).isLt
    show dat.after 3 t ((cfg0.win 3).xinj (grid0.coords t) j)
      = g ((((cfg0.win 3).blk t).view.emb j) 0) ((((cfg0.win 3).blk t).view.emb j) 2)
    have hj : (cfg0.win 3).xinj (grid0.coords t) j = ix3 (0 : Fin 1) (0 : Fin 1) (⟨(j 2).val, hj2⟩ : Fin 8192) := by
      refine funext fun a => Fin.ext ?_
      match a with
      | ⟨0, _⟩ => show (j 0).val = 0; omega
      | ⟨1, _⟩ => show (j 1).val = 0; omega
      | ⟨2, _⟩ => rfl
    rw [hj, h t ht]
    refine congrArg₂ g (Fin.ext ?_) (Fin.ext ?_)
    · show t.val / 64 = win0_3.index t (0 : Fin 3) * 1 + 1 * (j 0).val; omega
    · show (j 2).val = win0_3.index t (2 : Fin 3) * 8192 + 1 * (j 2).val; omega
  · have h0 : (i 0).val < 4 := (i 0).isLt
    have h1 : (i 1).val < 1 := (i 1).isLt
    have h2 : (i 2).val < 8192 := (i 2).isLt
    obtain ⟨t, htv⟩ : ∃ t : Fin cfg0.N, t.val = 64 * (i 0).val + 63 :=
      ⟨⟨64 * (i 0).val + 63, by rw [show cfg0.N = 256 from N_0]; omega⟩, rfl⟩
    obtain ⟨-, -, -, -, -, -, -, -, -, e0, e1, e2⟩ := idx_facts t
    refine ⟨t, (flush0_3 t).mpr (by omega), ?_⟩
    rw [mem_blk3]
    intro a
    match a with
    | ⟨0, _⟩ =>
      show win0_3.index t (0 : Fin 3) * 1 ≤ (i 0).val ∧ (i 0).val < win0_3.index t (0 : Fin 3) * 1 + 1; omega
    | ⟨1, _⟩ =>
      show win0_3.index t (1 : Fin 3) * 1 ≤ (i 1).val ∧ (i 1).val < win0_3.index t (1 : Fin 3) * 1 + 1; omega
    | ⟨2, _⟩ =>
      show win0_3.index t (2 : Fin 3) * 8192 ≤ (i 2).val ∧ (i 2).val < win0_3.index t (2 : Fin 3) * 8192 + 8192; omega

/-! ## After the tiles -/

/-- The array of row minima with its unit axis dropped, read at (batch, point). -/
theorem dropLast_eq (A : S4x8192x1.Idx → EReal) :
    shapeCast S4x8192 A shapeCasts_S4x8192x1_S4x8192 = fun i => A (ix3 (i 0) (i 1) (0 : Fin 1)) := by
  funext i
  refine shapeCast_apply A _ i _ ?_
  rw [Shape.rowMajor_val_three, Shape.rowMajor_val_two]
  show ((i 0).val * 8192 + (i 1).val) * 1 + 0 = (i 0).val * 8192 + (i 1).val
  omega

/-- The array of column minima with its unit axis dropped, read at (batch, point). -/
theorem dropMiddle_eq (A : S4x1x8192.Idx → EReal) :
    shapeCast S4x8192 A shapeCasts_S4x1x8192_S4x8192 = fun i => A (ix3 (i 0) (0 : Fin 1) (i 1)) := by
  funext i
  refine shapeCast_apply A _ i _ ?_
  rw [Shape.rowMajor_val_three, Shape.rowMajor_val_two]
  show ((i 0).val * 1 + 0) * 8192 + (i 1).val = (i 0).val * 8192 + (i 1).val
  omega

/-- What the program computes after the tiles is the reference's last operations applied to the two arrays of minima,
    each with its unit axis dropped. -/
theorem tail_apply (dats : (p : Fin 1) → (c : Dev nD) → Dat τ (Elt Ideal) Unit ℕ (UR sig nD τ) ℕ (cfgs p) c) (c : Dev nD) :
    Pipeline.afterTail₀ cfgs dats 0 (V0 m) [hostOps1] c main_v10
      = Cert.ReferenceIdeal.RefValue.tail
          (fun i => ((dats 0 c).arrAt 2 cfg0.N : S4x8192x1.Idx → EReal) (ix3 (i 0) (i 1) (0 : Fin 1)))
          (fun i => ((dats 0 c).arrAt 3 cfg0.N : S4x1x8192.Idx → EReal) (ix3 (i 0) (0 : Fin 1) (i 1))) := by
  have w2 : Pipeline.withArrays (cfgs 0).spec c (V0 m c) (fun w => (dats 0 c).arrAt w (cfgs 0).N)
      (Proc.devRef .tc main_v1_0) = (dats 0 c).arrAt 2 cfg0.N :=
    Pipeline.withArrays_arr spec0 launch0.win.arr_inj c _ _ 2
  have w3 : Pipeline.withArrays (cfgs 0).spec c (V0 m c) (fun w => (dats 0 c).arrAt w (cfgs 0).N)
      (Proc.devRef .tc main_v1_1) = (dats 0 c).arrAt 3 cfg0.N :=
    Pipeline.withArrays_arr spec0 launch0.win.arr_inj c _ _ 3
  unfold Pipeline.afterTail₀
  show StableHlo.after hostOps1 _ (Proc.devRef .tc main_v10) = _
  after_results
  rw [w2, w3]
  show addf
      (Host.divf (Host.reduceAdd (F := Ideal)
        (shapeCast S4x8192 ((dats 0 c).arrAt 2 cfg0.N : S4x8192x1.Idx → EReal) shapeCasts_S4x8192x1_S4x8192) _ _ _) _)
      (Host.divf (Host.reduceAdd (F := Ideal)
        (shapeCast S4x8192 ((dats 0 c).arrAt 3 cfg0.N : S4x1x8192.Idx → EReal) shapeCasts_S4x1x8192_S4x8192) _ _ _) _) = _
  rw [dropLast_eq, dropMiddle_eq]
  rfl

end Cert.KernelIdeal.Blocks

end
-- ==== Proof.Final.lean ====
/-
  The kernel and the reference compute one function.

  Per batch n, the kernel sweeps the 8 x 8 tiles of the 8192 x 8192 table of squared distances
  sqd(p, q) = (|x_p|^2 + |y_q|^2) - 2 <x_p, y_q>.  Along a row of tiles it keeps, for each of the 1024 rows, the
  minimum over the columns seen so far: after the eighth tile that is the minimum over all 8192 columns, and the
  block written back is a block of the row-minimum array.  Across the whole batch it keeps, for each of the 8192
  columns, the minimum over the rows seen so far: after the sixty-fourth tile that is the minimum over all 8192 rows.
  The reference takes the two minima over whole axes.  A minimum over a range of tiles is the minimum of the minima
  tile by tile, whatever the values (the extended reals are a complete linear order), so the two pairs of arrays are
  equal; both programs then apply the same last operations (sum over the points, divide by 8192, add) to them.
-/
import proofs.«134801_j481036337470_2_alg».proof.Defs
import proofs.«134801_j481036337470_2_alg».proof.Proof.Gen.Kernel
import proofs.«134801_j481036337470_2_alg».proof.Proof.Gen.KernelIdeal
import proofs.«134801_j481036337470_2_alg».proof.Proof.Gen.ReferenceIdeal
import proofs.«134801_j481036337470_2_alg».proof.Proof.Gen.Pre_finite_inputs
import proofs.«134801_j481036337470_2_alg».proof.Proof.BodyI
import proofs.«134801_j481036337470_2_alg».proof.Proof.RefSide
import proofs.«134801_j481036337470_2_alg».proof.Proof.Inv
import proofs.«134801_j481036337470_2_alg».proof.Proof.Blocks

set_option maxRecDepth 16384

noncomputable section

namespace Cert.KernelIdeal.Final

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The first cloud on core `c`. -/
abbrev cloudX (c : Dev nD) : Chamfer.Cloud.Idx → EReal := m ((c : Thread nD τ).loc main_arg0)
/-- The second cloud on core `c`. -/
abbrev cloudY (c : Dev nD) : Chamfer.Cloud.Idx → EReal := m ((c : Thread nD τ).loc main_arg1)

/-- The first output array ends as the row minima: at the last tile of each row of tiles the row accumulator holds
    the minimum over all 8192 columns, and those are the blocks written back. -/
theorem row_final (c : Dev nD) :
    (Hand.dats m 0 c).arrAt 2 cfg0.N = (fun i => Chamfer.rowMin (cloudX m c) (cloudY m c) (i 0) (i 1) : S4x8192x1.Idx → EReal) :=
  Blocks.final2 (Hand.dats m 0 c) (Chamfer.rowMin (cloudX m c) (cloudY m c)) fun t h7 p => by
    rw [Hand.after2]
    exact Inv.row_final (cloudX m c) (cloudY m c) cfg0.N N_0
      (fun n hn => iblk m c 0 ⟨n, hn⟩) (fun n hn => iblk m c 1 ⟨n, hn⟩) (fun n hn => grid0.coords ⟨n, hn⟩) (Hand.outs m c)
      (fun n hn => Hand.outs_eq m c ⟨n, hn⟩) (fun n hn => Blocks.off_apply ⟨n, hn⟩)
      (fun n hn p d => Blocks.iblk0_apply m c ⟨n, hn⟩ p d) (fun n hn d q => Blocks.iblk1_apply m c ⟨n, hn⟩ d q) t.val t.isLt h7 p

/-- The second output array ends as the column minima: at the last tile of each batch the column accumulator holds
    the minimum over all 8192 rows. -/
theorem col_final (c : Dev nD) :
    (Hand.dats m 0 c).arrAt 3 cfg0.N = (fun i => Chamfer.colMin (cloudX m c) (cloudY m c) (i 0) (i 2) : S4x1x8192.Idx → EReal) :=
  Blocks.final3 (Hand.dats m 0 c) (Chamfer.colMin (cloudX m c) (cloudY m c)) fun t h63 Q => by
    rw [Hand.after3]
    exact Inv.col_final (cloudX m c) (cloudY m c) cfg0.N N_0
      (fun n hn => iblk m c 0 ⟨n, hn⟩) (fun n hn => iblk m c 1 ⟨n, hn⟩) (fun n hn => grid0.coords ⟨n, hn⟩) (Hand.outs m c)
      (fun n hn => Hand.outs_eq m c ⟨n, hn⟩) (fun n hn => Blocks.off_apply ⟨n, hn⟩)
      (fun n hn p d => Blocks.iblk0_apply m c ⟨n, hn⟩ p d) (fun n hn d q => Blocks.iblk1_apply m c ⟨n, hn⟩ d q) t.val t.isLt h63 Q

/-- The common result: the shared last operations (the mean over the points of each array, and their sum) applied to
    the two nearest-neighbour arrays. -/
def result (X Y : Chamfer.Cloud.Idx → EReal) : (⟨Cert.ReferenceIdeal.S4, .f32⟩ : BufTy).Contents (Elt Ideal) :=
  Cert.ReferenceIdeal.RefValue.tail (fun i => Chamfer.rowMin X Y (i 0) (i 1)) (fun i => Chamfer.colMin X Y (i 0) (i 1))

/-- What the kernel's program leaves in its result: the last operations read the two output arrays through their
    reshapes to [4, 8192]. -/
theorem kernel_result (c : Dev nD) :
    Pipeline.afterTail₀ cfgs (Hand.dats m) 0 (V0 m) [hostOps1] c main_v10 = result (cloudX m c) (cloudY m c) := by
  rw [Blocks.tail_apply, row_final, col_final]
  rfl

theorem reference_result (x0 x1 : (⟨Cert.ReferenceIdeal.S4x8192x3, .f32⟩ : BufTy).Contents (Elt Ideal)) :
    Cert.ReferenceIdeal.Read.val_main_v21 (F := Ideal) x0 x1 = result x0 x1 := by
  have e1 : Cert.ReferenceIdeal.Read.val_main_v13 (F := Ideal) x0 x1 = fun i => Chamfer.rowMin x0 x1 (i 0) (i 1) :=
    funext fun i => (congrArg (Cert.ReferenceIdeal.Read.val_main_v13 (F := Ideal) x0 x1) (eq_ix2 i)).trans
      (Cert.ReferenceIdeal.RefValue.rowMin_ref x0 x1 (i 0) (i 1))
  have e2 : Cert.ReferenceIdeal.Read.val_main_v14 (F := Ideal) x0 x1 = fun i => Chamfer.colMin x0 x1 (i 0) (i 1) :=
    funext fun i => (congrArg (Cert.ReferenceIdeal.Read.val_main_v14 (F := Ideal) x0 x1) (eq_ix2 i)).trans
      (Cert.ReferenceIdeal.RefValue.colMin_ref x0 x1 (i 0) (i 1))
  rw [Cert.ReferenceIdeal.RefValue.result_ref, e1, e2]
  rfl

/-- From memories that agree on the two clouds both programs run, and end with the same four numbers. -/
theorem algebraic : Cert.algebraic_KernelIdeal_ReferenceIdeal := by
  intro m ρ m' ρ' _ hagree
  refine ⟨fun c => result (cloudX m c) (cloudY m c), ?_, ?_⟩
  · refine (θ_run Cert.KernelIdeal.defs _ _).mono (fun r h c => ⟨?_, ?_, ?_⟩) (Hand.run_main (F := Ideal) m ρ)
    · exact ((h c).2 main_v10 (Pipeline.mem_restRefs_of main_v10 (by decide) (by decide))).trans (kernel_result m c)
    · exact ((h c).1 0).trans (((Hand.dats m 0 c).arrAt_in 0 rfl _).trans ((Hand.A_eq m c 0).trans (V_main_arg0 m c)))
    · exact ((h c).2 main_arg1 (Pipeline.mem_restRefs_of main_arg1 (by decide) (by decide))).trans (W_main_arg1 m (Hand.dats m) c)
  · refine (θ_run Cert.ReferenceIdeal.defs _ _).mono (fun r h c => ⟨?_, (h c).2⟩) (Cert.ReferenceIdeal.Value.run (F := Ideal) m' ρ')
    rw [(h c).1, Cert.ReferenceIdeal.Read.val_main_v21_eq, reference_result, (hagree c).1, (hagree c).2]

end Cert.KernelIdeal.Final

end
-- ==== Proof.lean ====
/-
  The chamfer distance of two clouds of points, computed tile by tile with two running minima, against the same
  distance computed with whole-array minima: the certificate's five claims.

  The two programs that launch the tiled kernel run, and leave their two argument arrays as they were, because the
  kernel body at every grid point reads its two input blocks and writes only the two accumulators (Proof/BodyK.lean at
  the word level, Proof/BodyI.lean at the extended reals); the reference is a straight line of host operations.  The
  idealized kernel is the kernel's own text read at the extended reals (no operation was rewritten).  And the two
  idealized programs end with equal results (Proof/Final.lean): a minimum over 8192 entries is the minimum of the
  eight minima over 1024, in whatever order they are taken.
-/
import proofs.«134801_j481036337470_2_alg».proof.Defs
import proofs.«134801_j481036337470_2_alg».proof.Proof.Gen.Kernel
import proofs.«134801_j481036337470_2_alg».proof.Proof.Gen.Kernel.Skeleton
import proofs.«134801_j481036337470_2_alg».proof.Proof.Gen.Kernel.Launch
import proofs.«134801_j481036337470_2_alg».proof.Proof.Gen.Kernel.Points
import proofs.«134801_j481036337470_2_alg».proof.Proof.Gen.Kernel.Frame
import proofs.«134801_j481036337470_2_alg».proof.Proof.Gen.KernelIdeal
import proofs.«134801_j481036337470_2_alg».proof.Proof.Gen.KernelIdeal.Skeleton
import proofs.«134801_j481036337470_2_alg».proof.Proof.Gen.KernelIdeal.Launch
import proofs.«134801_j481036337470_2_alg».proof.Proof.Gen.KernelIdeal.Points
import proofs.«134801_j481036337470_2_alg».proof.Proof.Gen.KernelIdeal.Frame
import proofs.«134801_j481036337470_2_alg».proof.Proof.Gen.ReferenceIdeal
import proofs.«134801_j481036337470_2_alg».proof.Proof.Gen.ReferenceIdeal.Run
import proofs.«134801_j481036337470_2_alg».proof.Proof.Gen.Pre_finite_inputs
import proofs.«134801_j481036337470_2_alg».proof.Proof.BodyK
import proofs.«134801_j481036337470_2_alg».proof.Proof.BodyI
import proofs.«134801_j481036337470_2_alg».proof.Proof.Final
import Idealize.ShloMosaic.Adequacy
import Idealize.ShloMosaic.Init

noncomputable section

namespace Cert.Proof

open Idealize.ShloMosaic Idealize.SL.Sem

/-- The kernel's program, at the word level, runs and keeps its arguments. -/
theorem frame_kernel : Cert.frame_Kernel := fun m ρ _ => Cert.Kernel.Hand.frame (F := Bits) m ρ

/-- The same program read at the extended reals runs and keeps its arguments. -/
theorem frame_kernel_ideal : Cert.frame_KernelIdeal := fun m ρ _ => Cert.KernelIdeal.Hand.frame (F := Ideal) m ρ

/-- The reference runs and keeps its arguments: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, Cert.KernelIdeal.Final.algebraic⟩

end Cert.Proof

end
